-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x128x128 : Shape := ⟨4, ![32, 64, 128, 128]⟩
abbrev S_ : Shape := ⟨0, ![]⟩

class Facts : Prop where
  bcast_S_S32x64x128x128 : S_.BroadcastsInDim S32x64x128x128 (![] : Fin 0 → Fin S32x64x128x128.rank)
  reducesTo_S32x64x128x128_S_d0_1_2_3 : S32x64x128x128.ReducesTo [0, 1, 2, 3] S_
  h_S_ : 0 < S_.numel

variable [Facts]

def fn {F : FTy → Type} [FloatOps F] (main_arg0 : FVec F S32x64x128x128 .f32) : IVec S_ 1 :=
  let main_v0 : FVec F S32x64x128x128 .f32 := Host.absf main_arg0
  let main_cst : FVec F S_ .f32 := constant S_ .f32 0x7F800000#32
  let main_v1 : FVec F S32x64x128x128 .f32 := broadcastInDim S32x64x128x128 ![] bcast_S_S32x64x128x128 main_cst
  let main_v2 : IVec S32x64x128x128 1 := cmpf .olt main_v0 main_v1
  let main_c : IVec S_ 1 := constantI S_ 1 1#1
  let main_v3 : IVec S_ 1 := (fun x v => Host.reduce IntOp.andi x v reducesTo_S32x64x128x128_S_d0_1_2_3 h_S_) main_v2 main_c
  main_v3
-- ==== Kernel.lean ====
abbrev S32x64x128x128 : Shape := ⟨4, ![32, 64, 128, 128]⟩
abbrev S4x32x64x128x128 : Shape := ⟨5, ![4, 32, 64, 128, 128]⟩
abbrev S8x4x128x128 : Shape := ⟨4, ![8, 4, 128, 128]⟩
abbrev S1x4x128x128 : Shape := ⟨4, ![1, 4, 128, 128]⟩
abbrev S8x1x128x128 : Shape := ⟨4, ![8, 1, 128, 128]⟩
abbrev S4x8x4x128x128 : Shape := ⟨5, ![4, 8, 4, 128, 128]⟩
abbrev S8x4x128x127 : Shape := ⟨4, ![8, 4, 128, 127]⟩
abbrev S8x4x128x1 : Shape := ⟨4, ![8, 4, 128, 1]⟩
abbrev S8x4x127x128 : Shape := ⟨4, ![8, 4, 127, 128]⟩
abbrev S8x4x1x128 : Shape := ⟨4, ![8, 4, 1, 128]⟩
abbrev S8x3x128x128 : Shape := ⟨4, ![8, 3, 128, 128]⟩
abbrev S7x4x128x128 : Shape := ⟨4, ![7, 4, 128, 128]⟩
abbrev S1x8x4x128x128 : Shape := ⟨5, ![1, 8, 4, 128, 128]⟩

abbrev nBuf : Space → Nat
  | .hbm => 2
  | .vmem => 8
  | .smem => 0
  | _ => 0

abbrev bufTy : (tb : Table) → Fin (tcTables nBuf tb) → BufTy
  | .hbm, ⟨0, _⟩ => ⟨S32x64x128x128, .f32⟩
  | .hbm, ⟨1, _⟩ => ⟨S4x32x64x128x128, .f32⟩
  | .local _ .vmem, ⟨0, _⟩ => ⟨S8x4x128x128, .f32⟩
  | .local _ .vmem, ⟨1, _⟩ => ⟨S8x4x128x128, .f32⟩
  | .local _ .vmem, ⟨2, _⟩ => ⟨S1x4x128x128, .f32⟩
  | .local _ .vmem, ⟨3, _⟩ => ⟨S1x4x128x128, .f32⟩
  | .local _ .vmem, ⟨4, _⟩ => ⟨S8x1x128x128, .f32⟩
  | .local _ .vmem, ⟨5, _⟩ => ⟨S8x1x128x128, .f32⟩
  | .local _ .vmem, ⟨6, _⟩ => ⟨S4x8x4x128x128, .f32⟩
  | .local _ .vmem, ⟨7, _⟩ => ⟨S4x8x4x128x128, .f32⟩
  | _, _ => ⟨S32x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c31_i32 : BitVec 32 := 31#32
  let v2 : BitVec 32 := Scalar.minsi v1 c31_i32
  let c0_i32 : BitVec 32 := 0#32
  let c0_i32_1 : BitVec 32 := 0#32
  let c0_i32_2 : BitVec 32 := 0#32
  ![v2.toNat, arg1.toNat, c0_i32.toNat, c0_i32_1.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.addi v0 c4_i32_0
  let c63_i32 : BitVec 32 := 63#32
  let v2 : BitVec 32 := Scalar.minsi v1 c63_i32
  let c0_i32 : BitVec 32 := 0#32
  let c0_i32_1 : BitVec 32 := 0#32
  let c0_i32_2 : BitVec 32 := 0#32
  ![arg0.toNat, v2.toNat, c0_i32.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

abbrev stage0_0 : Fin 2 → Memref sig .tc .vmem S8x4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x8x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S8x4x128x128_S8x4x128x128_0_0_0_0 : ∀ a, (![0, 0, 0, 0] : Fin 4 → Nat) a + S8x4x128x128.size a ≤ S8x4x128x128.size a
  h_S8x4x128x128 : 0 < S8x4x128x128.numel
  inb_S1x4x128x128_S1x4x128x128_0_0_0_0 : ∀ a, (![0, 0, 0, 0] : Fin 4 → Nat) a + S1x4x128x128.size a ≤ S1x4x128x128.size a
  h_S1x4x128x128 : 0 < S1x4x128x128.numel
  inb_S8x1x128x128_S8x1x128x128_0_0_0_0 : ∀ a, (![0, 0, 0, 0] : Fin 4 → Nat) a + S8x1x128x128.size a ≤ S8x1x128x128.size a
  h_S8x1x128x128 : 0 < S8x1x128x128.numel
  slices_S8x4x128x128_o0_0_0_1_S8x4x128x127 : S8x4x128x128.Slices ![0, 0, 0, 1] S8x4x128x127
  slices_S8x4x128x128_o0_0_0_0_S8x4x128x127 : S8x4x128x128.Slices ![0, 0, 0, 0] S8x4x128x127
  concatenates_S8x4x128x127_S8x4x128x1_S8x4x128x128_d3 : Shape.Concatenates [S8x4x128x127, S8x4x128x1] S8x4x128x128 3
  slices_S8x4x128x128_o0_0_1_0_S8x4x127x128 : S8x4x128x128.Slices ![0, 0, 1, 0] S8x4x127x128
  slices_S8x4x128x128_o0_0_0_0_S8x4x127x128 : S8x4x128x128.Slices ![0, 0, 0, 0] S8x4x127x128
  concatenates_S8x4x127x128_S8x4x1x128_S8x4x128x128_d2 : Shape.Concatenates [S8x4x127x128, S8x4x1x128] S8x4x128x128 2
  slices_S8x4x128x128_o0_1_0_0_S8x3x128x128 : S8x4x128x128.Slices ![0, 1, 0, 0] S8x3x128x128
  slices_S8x4x128x128_o0_0_0_0_S8x3x128x128 : S8x4x128x128.Slices ![0, 0, 0, 0] S8x3x128x128
  slices_S8x4x128x128_o0_3_0_0_S8x1x128x128 : S8x4x128x128.Slices ![0, 3, 0, 0] S8x1x128x128
  concatenates_S8x3x128x128_S8x1x128x128_S8x4x128x128_d1 : Shape.Concatenates [S8x3x128x128, S8x1x128x128] S8x4x128x128 1
  slices_S8x4x128x128_o1_0_0_0_S7x4x128x128 : S8x4x128x128.Slices ![1, 0, 0, 0] S7x4x128x128
  slices_S8x4x128x128_o0_0_0_0_S7x4x128x128 : S8x4x128x128.Slices ![0, 0, 0, 0] S7x4x128x128
  slices_S8x4x128x128_o7_0_0_0_S1x4x128x128 : S8x4x128x128.Slices ![7, 0, 0, 0] S1x4x128x128
  concatenates_S7x4x128x128_S1x4x128x128_S8x4x128x128_d0 : Shape.Concatenates [S7x4x128x128, S1x4x128x128] S8x4x128x128 0
  shapeCasts_S8x4x128x128_S1x8x4x128x128 : S8x4x128x128.ShapeCasts S1x8x4x128x128
  concatenates_S1x8x4x128x128_S1x8x4x128x128_S1x8x4x128x128_S1x8x4x128x128_S4x8x4x128x128_d0 : Shape.Concatenates [S1x8x4x128x128, S1x8x4x128x128, S1x8x4x128x128, S1x8x4x128x128] S4x8x4x128x128 0
  inb_S4x8x4x128x128_S4x8x4x128x128_0_0_0_0_0 : ∀ a, (![0, 0, 0, 0, 0] : Fin 5 → Nat) a + S4x8x4x128x128.size a ≤ S4x8x4x128x128.size a
  h_S4x8x4x128x128 : 0 < S4x8x4x128x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4x128x128.size a ≤ S32x64x128x128.size a
  hwx0_0 : ∀ i : grid0.Coords, EltTy.bits .f32 = 32 ∨ (Rect.block (s := S32x64x128x128) S8x4x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x128x128.size a ≤ S32x64x128x128.size a
  hwx0_1 : ∀ i : grid0.Coords, EltTy.bits .f32 = 32 ∨ (Rect.block (s := S32x64x128x128) S1x4x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x128x128.size a ≤ S32x64x128x128.size a
  hwx0_2 : ∀ i : grid0.Coords, EltTy.bits .f32 = 32 ∨ (Rect.block (s := S32x64x128x128) S8x1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x8x4x128x128.size a ≤ S4x32x64x128x128.size a
  hwx0_3 : ∀ i : grid0.Coords, EltTy.bits .f32 = 32 ∨ (Rect.block (s := S4x32x64x128x128) S4x8x4x128x128.size (cc0_transform_3 i) (hinb0_3 i)).WholeWords (EltTy.packing .f32)

variable [Facts₀]

abbrev win0_0 : Pipeline.Window sig grid0 :=
  Pipeline.Window.ofSpec (Memref.whole main_arg0) S8x4x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8x1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x8x4x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x64x128x128 : Shape := ⟨4, ![32, 64, 128, 128]⟩
abbrev S32x64x128x127 : Shape := ⟨4, ![32, 64, 128, 127]⟩
abbrev S_ : Shape := ⟨0, ![]⟩
abbrev S32x64x127x128 : Shape := ⟨4, ![32, 64, 127, 128]⟩
abbrev S32x63x128x128 : Shape := ⟨4, ![32, 63, 128, 128]⟩
abbrev S31x64x128x128 : Shape := ⟨4, ![31, 64, 128, 128]⟩
abbrev S1x32x64x128x128 : Shape := ⟨5, ![1, 32, 64, 128, 128]⟩
abbrev S4x32x64x128x128 : Shape := ⟨5, ![4, 32, 64, 128, 128]⟩

abbrev nBuf : Space → Nat
  | .hbm => 42
  | .vmem => 0
  | .smem => 0
  | _ => 0

abbrev bufTy : (tb : Table) → Fin (tcTables nBuf tb) → BufTy
  | .hbm, ⟨0, _⟩ => ⟨S32x64x128x128, .f32⟩
  | .hbm, ⟨1, _⟩ => ⟨S32x64x128x127, .f32⟩
  | .hbm, ⟨2, _⟩ => ⟨S32x64x128x127, .f32⟩
  | .hbm, ⟨3, _⟩ => ⟨S32x64x128x127, .f32⟩
  | .hbm, ⟨4, _⟩ => ⟨S_, .i32⟩
  | .hbm, ⟨5, _⟩ => ⟨S_, .f32⟩
  | .hbm, ⟨6, _⟩ => ⟨S32x64x128x128, .f32⟩
  | .hbm, ⟨7, _⟩ => ⟨S_, .f32⟩
  | .hbm, ⟨8, _⟩ => ⟨S32x64x128x128, .f32⟩
  | .hbm, ⟨9, _⟩ => ⟨S32x64x128x128, .f32⟩
  | .hbm, ⟨10, _⟩ => ⟨S32x64x127x128, .f32⟩
  | .hbm, ⟨11, _⟩ => ⟨S32x64x127x128, .f32⟩
  | .hbm, ⟨12, _⟩ => ⟨S32x64x127x128, .f32⟩
  | .hbm, ⟨13, _⟩ => ⟨S_, .i32⟩
  | .hbm, ⟨14, _⟩ => ⟨S_, .f32⟩
  | .hbm, ⟨15, _⟩ => ⟨S32x64x128x128, .f32⟩
  | .hbm, ⟨16, _⟩ => ⟨S_, .f32⟩
  | .hbm, ⟨17, _⟩ => ⟨S32x64x128x128, .f32⟩
  | .hbm, ⟨18, _⟩ => ⟨S32x64x128x128, .f32⟩
  | .hbm, ⟨19, _⟩ => ⟨S32x63x128x128, .f32⟩
  | .hbm, ⟨20, _⟩ => ⟨S32x63x128x128, .f32⟩
  | .hbm, ⟨21, _⟩ => ⟨S32x63x128x128, .f32⟩
  | .hbm, ⟨22, _⟩ => ⟨S_, .i32⟩
  | .hbm, ⟨23, _⟩ => ⟨S_, .f32⟩
  | .hbm, ⟨24, _⟩ => ⟨S32x64x128x128, .f32⟩
  | .hbm, ⟨25, _⟩ => ⟨S_, .f32⟩
  | .hbm, ⟨26, _⟩ => ⟨S32x64x128x128, .f32⟩
  | .hbm, ⟨27, _⟩ => ⟨S32x64x128x128, .f32⟩
  | .hbm, ⟨28, _⟩ => ⟨S31x64x128x128, .f32⟩
  | .hbm, ⟨29, _⟩ => ⟨S31x64x128x128, .f32⟩
  | .hbm, ⟨30, _⟩ => ⟨S31x64x128x128, .f32⟩
  | .hbm, ⟨31, _⟩ => ⟨S_, .i32⟩
  | .hbm, ⟨32, _⟩ => ⟨S_, .f32⟩
  | .hbm, ⟨33, _⟩ => ⟨S32x64x128x128, .f32⟩
  | .hbm, ⟨34, _⟩ => ⟨S_, .f32⟩
  | .hbm, ⟨35, _⟩ => ⟨S32x64x128x128, .f32⟩
  | .hbm, ⟨36, _⟩ => ⟨S32x64x128x128, .f32⟩
  | .hbm, ⟨37, _⟩ => ⟨S1x32x64x128x128, .f32⟩
  | .hbm, ⟨38, _⟩ => ⟨S1x32x64x128x128, .f32⟩
  | .hbm, ⟨39, _⟩ => ⟨S1x32x64x128x128, .f32⟩
  | .hbm, ⟨40, _⟩ => ⟨S1x32x64x128x128, .f32⟩
  | .hbm, ⟨41, _⟩ => ⟨S4x32x64x128x128, .f32⟩
  | _, _ => ⟨S32x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev main_c : Ref sig .tc := ⟨.hbm, 4, rfl⟩
abbrev main_call1_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_call2_v0 : Ref sig .tc := ⟨.hbm, 10, rfl⟩
abbrev main_call2_v1 : Ref sig .tc := ⟨.hbm, 11, rfl⟩
abbrev main_v4 : Ref sig .tc := ⟨.hbm, 12, rfl⟩
abbrev main_c_0 : Ref sig .tc := ⟨.hbm, 13, rfl⟩
abbrev main_call3_v0 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_call4_v0 : Ref sig .tc := ⟨.hbm, 19, rfl⟩
abbrev main_call4_v1 : Ref sig .tc := ⟨.hbm, 20, rfl⟩
abbrev main_v8 : Ref sig .tc := ⟨.hbm, 21, rfl⟩
abbrev main_c_2 : Ref sig .tc := ⟨.hbm, 22, rfl⟩
abbrev main_call5_v0 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_call6_v0 : Ref sig .tc := ⟨.hbm, 28, rfl⟩
abbrev main_call6_v1 : Ref sig .tc := ⟨.hbm, 29, rfl⟩
abbrev main_v12 : Ref sig .tc := ⟨.hbm, 30, rfl⟩
abbrev main_c_4 : Ref sig .tc := ⟨.hbm, 31, rfl⟩
abbrev main_call7_v0 : Ref sig .tc := ⟨.hbm, 32, rfl⟩
abbrev main_v13 : Ref sig .tc := ⟨.hbm, 33, rfl⟩
abbrev main_cst_5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  slices_S32x64x128x128_S32x64x128x127_0_0_0_1 : S32x64x128x128.Slices ![0, 0, 0, 1] S32x64x128x127
  slices_S32x64x128x128_S32x64x128x127_0_0_0_0 : S32x64x128x128.Slices ![0, 0, 0, 0] S32x64x128x127
  pads_S32x64x128x127_S32x64x128x128_000_000_000_010 : S32x64x128x127.Pads (![0, 0, 0, 0] : Fin 4 → Nat) ![0, 0, 0, 1] ![0, 0, 0, 0] S32x64x128x128
  h_S_ : 0 < S_.numel
  bcast_S_S32x64x128x128 : S_.BroadcastsInDim S32x64x128x128 (![] : Fin 0 → Fin S32x64x128x128.rank)
  slices_S32x64x128x128_S32x64x127x128_0_0_1_0 : S32x64x128x128.Slices ![0, 0, 1, 0] S32x64x127x128
  slices_S32x64x128x128_S32x64x127x128_0_0_0_0 : S32x64x128x128.Slices ![0, 0, 0, 0] S32x64x127x128
  pads_S32x64x127x128_S32x64x128x128_000_000_010_000 : S32x64x127x128.Pads (![0, 0, 0, 0] : Fin 4 → Nat) ![0, 0, 1, 0] ![0, 0, 0, 0] S32x64x128x128
  slices_S32x64x128x128_S32x63x128x128_0_1_0_0 : S32x64x128x128.Slices ![0, 1, 0, 0] S32x63x128x128
  slices_S32x64x128x128_S32x63x128x128_0_0_0_0 : S32x64x128x128.Slices ![0, 0, 0, 0] S32x63x128x128
  pads_S32x63x128x128_S32x64x128x128_000_010_000_000 : S32x63x128x128.Pads (![0, 0, 0, 0] : Fin 4 → Nat) ![0, 1, 0, 0] ![0, 0, 0, 0] S32x64x128x128
  slices_S32x64x128x128_S31x64x128x128_1_0_0_0 : S32x64x128x128.Slices ![1, 0, 0, 0] S31x64x128x128
  slices_S32x64x128x128_S31x64x128x128_0_0_0_0 : S32x64x128x128.Slices ![0, 0, 0, 0] S31x64x128x128
  pads_S31x64x128x128_S32x64x128x128_010_000_000_000 : S31x64x128x128.Pads (![0, 0, 0, 0] : Fin 4 → Nat) ![1, 0, 0, 0] ![0, 0, 0, 0] S32x64x128x128
  bcast_S32x64x128x128_S1x32x64x128x128_1_2_3_4 : S32x64x128x128.BroadcastsInDim S1x32x64x128x128 (![1, 2, 3, 4] : Fin 4 → Fin S1x32x64x128x128.rank)
  concatenates_S1x32x64x128x128_S1x32x64x128x128_S1x32x64x128x128_S1x32x64x128x128_S4x32x64x128x128_d0 : Shape.Concatenates [S1x32x64x128x128, S1x32x64x128x128, S1x32x64x128x128, S1x32x64x128x128] S4x32x64x128x128 0

variable [Facts₀]

class Facts : Prop extends Facts₀ where

variable [Facts]
-- ==== Proof.Shares.lean ====
/-
  How the full share of the one argument array is dealt among the three input windows that read it: the first
  window holds the left half, the second the left half of the right half, the third the right half of the right
  half. The three pieces are pairwise disjoint and join to the full share, so each window may read the array while
  none may write it. The output window's array is its own and is held whole.
-/
import Idealize.SL.RA.TreeShare

namespace Cert.Nabla

open Idealize.SL.RA

/-- The share of its array each of the four windows holds. -/
def winShare : Fin 4 → PosShare TreeShare
  | ⟨0, _⟩ => fullShare.left
  | ⟨1, _⟩ => fullShare.right.left
  | ⟨2, _⟩ => fullShare.right.right
  | ⟨3, _⟩ => fullShare

theorem winShare_0 : winShare 0 = fullShare.left := rfl
theorem winShare_1 : winShare 1 = fullShare.right.left := rfl
theorem winShare_2 : winShare 2 = fullShare.right.right := rfl
theorem winShare_3 : winShare 3 = fullShare := rfl

end Cert.Nabla
-- ==== Proof.KernelTiles.lean ====
/-
  The kernel's run as printed, point by point, at any float instance.

  The region is entered with every buffer as launched. At grid point t = (i, j) the three input windows are fetched:
  window 0 holds the tile of the argument array at tile index (i, j), window 1 the one t-row that follows the tile
  (clamped to the last row), window 2 the one z-row that follows it (clamped likewise). The body loads the three
  whole, computes the four differences as one value of shape 4 × 8 × 4 × 128 × 128, and stores it over the whole
  of window 3's buffer, which is written back to block (0, i, j, 0, 0) of the result. Nothing is carried from one
  point to the next, the argument array is only read (the three windows hold disjoint shares of it), and the
  result's blocks are pairwise disjoint and fill it.
-/
import proofs.«105243_j44848048504983_1_alg».proof.Proof.Gen.Kernel.Launch
import proofs.«105243_j44848048504983_1_alg».proof.Proof.Gen.Kernel.Skeleton
import proofs.«105243_j44848048504983_1_alg».proof.Proof.Gen.Kernel.Points
import proofs.«105243_j44848048504983_1_alg».proof.Proof.Shares
import Idealize.ShloMosaic.Lib.Pipeline.FrameBody
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffers when the region is entered: as launched (the program is the region alone). -/
abbrev V (c : Dev nD) (b : Ref sig .tc) : Buf (Elt F) ((c : Thread nD τ).loc b) := m ((c : Thread nD τ).loc b)

/-- The program up to the region is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output window's buffer -/

/-- The whole of each staging buffer, as the rectangle the body loads or stores through. -/
abbrev rTile : Rect S8x4x128x128 := Rect.unit (s := S8x4x128x128) ![0, 0, 0, 0] S8x4x128x128.size inb_S8x4x128x128_S8x4x128x128_0_0_0_0
abbrev rRowT : Rect S1x4x128x128 := Rect.unit (s := S1x4x128x128) ![0, 0, 0, 0] S1x4x128x128.size inb_S1x4x128x128_S1x4x128x128_0_0_0_0
abbrev rRowZ : Rect S8x1x128x128 := Rect.unit (s := S8x1x128x128) ![0, 0, 0, 0] S8x1x128x128.size inb_S8x1x128x128_S8x1x128x128_0_0_0_0
abbrev rOut : Rect S4x8x4x128x128 := Rect.unit (s := S4x8x4x128x128) ![0, 0, 0, 0, 0] S4x8x4x128x128.size inb_S4x8x4x128x128_S4x8x4x128x128_0_0_0_0_0

/-- The four differences of a tile `x0` with its following t-row `x1` and z-row `x2`, as the body's one stored value. -/
def stored (x0 : Vec F S8x4x128x128 .f32) (x1 : Vec F S1x4x128x128 .f32) (x2 : Vec F S8x1x128x128 .f32) : FVec F S4x8x4x128x128 .f32 :=
  k0_pay1 (k0_pay2 (View.ld x0 rTile)) (k0_pay3 (View.ld x0 rTile)) (k0_pay4 (View.ld x0 rTile) (View.ld x2 rRowZ))
    (k0_pay5 (View.ld x0 rTile)) (k0_pay6 (View.ld x0 rTile) (View.ld x1 rRowT))

/-- The output window's buffer after the body: its one store, over the whole buffer. -/
def out3 (x0 : Vec F S8x4x128x128 .f32) (x1 : Vec F S1x4x128x128 .f32) (x2 : Vec F S8x1x128x128 .f32) : Vec F S4x8x4x128x128 .f32 :=
  View.canon [⟨rOut, stored x0 x1 x2⟩]

/-- The one store covers the buffer. -/
theorem cover3 (p0 : Vec F S4x8x4x128x128 .f32) (y : S4x8x4x128x128.Idx) :
    ∃ pc ∈ ([⟨rOut, p0⟩] : List (View.Piece (Elt F) S4x8x4x128x128 .f32)), y ∈ pc.1.set :=
  View.cover_of_tiled [⟨rOut, p0⟩] S4x8x4x128x128.size (by rfl) y

/-! ## The body's triple -/

set_option maxHeartbeats 1000000 in
/-- The body on whole staging memrefs, the inputs' at contents `x0 x1 x2` and the output's at anything, runs to the
    continuation with the inputs' as they were and the output's at `out3` of them. -/
theorem sound_kernel (c : Dev nD) (E : Set ℕ) (i : grid0.Coords)
    (arg2 : Memref sig .tc .vmem S8x4x128x128 .f32) (harg2 : arg2.IsWhole) (arg3 : Memref sig .tc .vmem S1x4x128x128 .f32) (harg3 : arg3.IsWhole)
    (arg4 : Memref sig .tc .vmem S8x1x128x128 .f32) (harg4 : arg4.IsWhole) (arg5 : Memref sig .tc .vmem S4x8x4x128x128 .f32) (harg5 : arg5.IsWhole)
    (x0 : Vec F S8x4x128x128 .f32) (x1 : Vec F S1x4x128x128 .f32) (x2 : Vec F S8x1x128x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out3 x0 x1 x2)) -∗ K ⟨⟩))
      ⊢ wp frame (wpE (defs₀ (F := F)) Variants.none c none) E (cc0__nabla4d_kernel i arg2 harg2 arg3 harg3 arg4 harg4 arg5 harg5) K := by
  simp only [cc0__nabla4d_kernel_eq_skeleton]; unfold cc0__nabla4d_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data -/

/-- The proof data of the one pipeline on core `c`: the arrays as the region finds them; after the body at point `t`
    each input window's buffer still at its block and the output's at `out3` of the three blocks; the invariant the
    kernel's scratch (it has none); the argument array's full share dealt among the three input windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.scopedRest (Ix := Unit) (Name := ℕ) (U := UR sig nD τ) (Lvl := ℕ) (Val := Elt F) spec0 c
  q := Cert.Nabla.winShare
  owed _ := 0

/-- The proof data's arrays are the region-entry contents. -/
theorem A_eq (c : Dev nD) (w : Fin cfg0.W) : (dats m 0 c).A w = V m c (Pipeline.arrRef spec0 w) := by
  dsimp only [dats]

theorem q_eq (c : Dev nD) : (dats m 0 c).q = Cert.Nabla.winShare := by dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = out3 (iblk m c 0 t) (iblk m c 1 t) (iblk m c 2 t) := by dsimp only [dats]

/-- Each input window is fetched at every point, so its current buffer holds its block there. -/
theorem before_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)
theorem before_2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Tiles

end
-- ==== Proof.LibSharedLaunch.lean ====
/-
  The frame run of a pipeline kernel with no semaphore of its own whose windows may SHARE an array: one array of
  the launch handed to the kernel through several input windows.

  A frame run says: from any launch memory with every counter at zero, every fair execution of the program on the
  TensorCores terminates, and in every final state each window's array holds what the proof data compute for it
  after the last grid point, while every unscoped buffer that is no window's array holds what it held when the
  region was entered. The library states this for windows on pairwise distinct arrays, each held at the full share.
  Here distinctness is not asked. In its place the caller says how the DISTINCT buffers behind the windows' arrays,
  each whole at the full share at its entry contents, make up the proof data's arrays at entry — a buffer read
  through several input windows being dealt among them in disjoint shares that join to the full share.

  The region's invariant is the scoped buffers that are no staging buffer, each at some contents, and nothing more:
  the kernel's scratch may be used freely by the body, and carries nothing from one grid point to the next.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

namespace Pipeline

open Idealize.ShloMosaic.Rounds

/-- THE FRAME RUN for windows that may share arrays. The buffers that are no window's array bypass the region: they
    are set aside whole at its entry (`Z`), nothing of them enters the invariant (`X` is empty), and at the end
    each is read back against the memory at its entry contents. The invariant at the first point is the scoped rest
    alone, and the scoped rest is all that the last point returns (`Y` is empty). The windows' arrays are read at
    the end by the library, window by window at the window's own share, so that windows on one array end at the
    same contents. -/
theorem θ_run_frame_shared {nD : Nat} {τ : Topo} {sig : RefSig} {Val : EltTy → Type} {Λ₀ : SL.Sem.Labels} {P : Type}
    [Fintype P] [DecidableEq P] [∀ e, Nonempty (Val e)]
    (cfgs : P → Cfg sig Λ₀) (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp (MT nD τ sig Unit Val ℕ (UR sig nD τ) ℕ))
      ⊢ (dats p c).arrays ((dats p c).arrAt · 0))
    (hΦ : ∀ c t, (dats p c).Φ t
      = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := show (ownU _ : sProp (MT nD τ sig Unit Val ℕ (UR sig nD τ) ℕ))
        ⊢ BI.own (emb₁ (initOf (cells cfgs hinj) (launchToks cfgs hinj))) from .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => by
      rw [hΦ]
      iintro ⟨-, HR⟩; iexact HR)
    (hout := fun c => by
      rw [hΦ]
      iintro HR
      isplitr; · iempintro
      iexact HR)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Pipeline

end Idealize.ShloMosaic
-- ==== Proof.KernelShares.lean ====
/-
  The three input windows read one array; the output window writes another. At entry the two buffers behind
  them are each held whole at the full share. This module shows that this is enough for what the windows hold at
  entry: the full share of the argument array is cut in two (left half, right half) and its right half in two
  again, which gives the three input windows their pairwise disjoint pieces, each a points-to of the whole array
  at the same contents; the output array passes to its window unchanged.
-/
import proofs.«105243_j44848048504983_1_alg».proof.Proof.Shares
import proofs.«105243_j44848048504983_1_alg».proof.Proof.Gen.Kernel.Launch
import Idealize.ShloMosaic.Lib.Pipeline.Frame

noncomputable section

namespace Cert.Kernel.Shares

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode

/-- The four windows sit on two buffers: the argument array (windows 0, 1, 2) and the result array (window 3). -/
theorem arrRef_image : (Finset.univ.image (Pipeline.arrRef spec0) : Finset (Ref sig .tc)) = {main_arg0, main_v0} := by decide

variable {F : FTy → Type} [FloatOps F]

local notation "𝕄" => MT nD τ sig Unit (Elt F) ℕ (UR sig nD τ) ℕ

/-- The share each window holds of its array once the input shares are the dealt ones: an input window holds its
    dealt piece, the output window the full share. -/
theorem share_eq (c : Dev nD) (dat : Pipeline.Dat τ (Elt F) Unit ℕ (UR sig nD τ) ℕ cfg0 c) (hq : dat.q = Cert.Nabla.winShare) :
    dat.share 0 = fullShare.left ∧ dat.share 1 = fullShare.right.left ∧ dat.share 2 = fullShare.right.right ∧ dat.share 3 = fullShare := by
  unfold Pipeline.Dat.share
  rw [hq]
  exact ⟨rfl, rfl, rfl, rfl⟩

/-- The two buffers, each whole at the full share at contents `V`, give the four windows' arrays at entry: every
    window's array is its whole buffer, its entry contents are `V` of that buffer (`hA`), and the full share of the
    argument array is the join of the three input windows' shares (a share is the join of its left and right
    halves, used at the full share and again at its right half). -/
theorem hsplit (c : Dev nD)
    (dat : Pipeline.Dat τ (Elt F) Unit ℕ (UR sig nD τ) ℕ cfg0 c) (hq : dat.q = Cert.Nabla.winShare)
    (V : (b : Ref sig .tc) → Buf (Elt F) ((c.tc : Thread nD τ).loc b)) (hA : ∀ w, dat.A w = V (Pipeline.arrRef spec0 w)) :
    (Pipeline.arrBufs spec0 c V : sProp 𝕄) ⊢ dat.arrays (dat.arrAt · 0) := by
  obtain ⟨s0, s1, s2, s3⟩ := share_eq c dat hq
  -- each window's entry points-to, rewritten over its buffer: the array's element set is the whole buffer's, the
  -- contents before any write-back are the entry contents
  have e0 : ((cfg0.win 0).arr.view.loc (c.tc : Thread nD τ) ↦[(cfg0.win 0).arr.view.set]{dat.share 0} dat.arrAt 0 0 : sProp 𝕄)
      = ((c.tc : Thread nD τ).loc main_arg0 ↦{fullShare.left} V main_arg0) := by
    rw [(arr_whole0 0).set_eq_univ, s0]; show (_ ↦{_} dat.A 0) = _; rw [hA]
  have e1 : ((cfg0.win 1).arr.view.loc (c.tc : Thread nD τ) ↦[(cfg0.win 1).arr.view.set]{dat.share 1} dat.arrAt 1 0 : sProp 𝕄)
      = ((c.tc : Thread nD τ).loc main_arg0 ↦{fullShare.right.left} V main_arg0) := by
    rw [(arr_whole0 1).set_eq_univ, s1]; show (_ ↦{_} dat.A 1) = _; rw [hA]
  have e2 : ((cfg0.win 2).arr.view.loc (c.tc : Thread nD τ) ↦[(cfg0.win 2).arr.view.set]{dat.share 2} dat.arrAt 2 0 : sProp 𝕄)
      = ((c.tc : Thread nD τ).loc main_arg0 ↦{fullShare.right.right} V main_arg0) := by
    rw [(arr_whole0 2).set_eq_univ, s2]; show (_ ↦{_} dat.A 2) = _; rw [hA]
  have e3 : ((cfg0.win 3).arr.view.loc (c.tc : Thread nD τ) ↦[(cfg0.win 3).arr.view.set]{dat.share 3} dat.arrAt 3 0 : sProp 𝕄)
      = ((c.tc : Thread nD τ).loc main_v0 ↦{fullShare} V main_v0) := by
    rw [(arr_whole0 3).set_eq_univ, s3]; show (_ ↦{_} dat.A 3) = _; rw [hA]
  unfold Pipeline.arrBufs Pipeline.Dat.arrays
  rw [arrRef_image, bigSep_W0, bigSep_insert (by decide), bigSep_singleton]
  beta_reduce
  rw [e0, e1, e2, e3]
  refine (show (iprop(((c.tc : Thread nD τ).loc main_arg0 ↦{fullShare} V main_arg0) ∗ ((c.tc : Thread nD τ).loc main_v0 ↦{fullShare} V main_v0)) : sProp 𝕄) ⊢ _ from ?_)
  iintro ⟨Ha, Hv⟩
  -- the full share is its left half joined with its right half
  ihave Ha := (pointsTo_share (PosShare.mem_left_op_right fullShare)).1 $$ Ha
  icases Ha with ⟨H0, Hr⟩
  -- and the right half is its own two halves joined
  ihave Hr := (pointsTo_share (PosShare.mem_left_op_right fullShare.right)).1 $$ Hr
  icases Hr with ⟨H1, H2⟩
  isplitl [H0]; · iexact H0
  isplitl [H1]; · iexact H1
  isplitl [H2]; · iexact H2
  iexact Hv

end Cert.Kernel.Shares

end
-- ==== Proof.KernelRun.lean ====
/-
  The printed kernel's launch and its frame.

  The pipeline fetches the three input windows and writes the output window back at each of the 64 grid points; the
  body's obligation at a point is proved beside the proof data. The argument array is read through three windows at
  once, so its full share is dealt among them at the region's entry and every window's array is found again at the
  end: the result at what the points wrote back, the argument as launched.
-/
import proofs.«105243_j44848048504983_1_alg».proof.Proof.KernelTiles
import proofs.«105243_j44848048504983_1_alg».proof.Proof.LibSharedLaunch
import proofs.«105243_j44848048504983_1_alg».proof.Proof.KernelShares
set_option maxRecDepth 16384

noncomputable section

namespace Cert.Kernel.Tiles

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every weakly fair execution of the program terminates, and every final state has each window's array at what the
    library computes from the proof data and every other unscoped buffer as the region found it. The three input
    windows read one array: the launch is the one for windows that share an array. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := fun c => Cert.Kernel.Shares.hsplit c (dats m 0 c) (q_eq m c) (V m c) (A_eq m c)) (hΦ := fun _ _ => rfl)

/-- The frame: the program runs to the end without a fault and the argument array ends as launched (an input
    window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

end Cert.Kernel.Tiles

end
-- ==== Proof.KernelIdealTiles.lean ====
/-
  The idealized kernel's run, point by point, at any float instance.

  The region is entered with every buffer as launched. At grid point t = (i, j) the three input windows are fetched:
  window 0 holds the tile of the argument array at tile index (i, j), window 1 the one t-row that follows the tile
  (clamped to the last row), window 2 the one z-row that follows it (clamped likewise). The body loads the three
  whole, computes the four differences as one value of shape 4 × 8 × 4 × 128 × 128, and stores it over the whole
  of window 3's buffer, which is written back to block (0, i, j, 0, 0) of the result. Nothing is carried from one
  point to the next, the argument array is only read (the three windows hold disjoint shares of it), and the
  result's blocks are pairwise disjoint and fill it.
-/
import proofs.«105243_j44848048504983_1_alg».proof.Proof.Gen.KernelIdeal.Launch
import proofs.«105243_j44848048504983_1_alg».proof.Proof.Gen.KernelIdeal.Skeleton
import proofs.«105243_j44848048504983_1_alg».proof.Proof.Gen.KernelIdeal.Points
import proofs.«105243_j44848048504983_1_alg».proof.Proof.Shares
import Idealize.ShloMosaic.Lib.Pipeline.FrameBody
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffers when the region is entered: as launched (the program is the region alone). -/
abbrev V (c : Dev nD) (b : Ref sig .tc) : Buf (Elt F) ((c : Thread nD τ).loc b) := m ((c : Thread nD τ).loc b)

/-- The program up to the region is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output window's buffer -/

/-- The whole of each staging buffer, as the rectangle the body loads or stores through. -/
abbrev rTile : Rect S8x4x128x128 := Rect.unit (s := S8x4x128x128) ![0, 0, 0, 0] S8x4x128x128.size inb_S8x4x128x128_S8x4x128x128_0_0_0_0
abbrev rRowT : Rect S1x4x128x128 := Rect.unit (s := S1x4x128x128) ![0, 0, 0, 0] S1x4x128x128.size inb_S1x4x128x128_S1x4x128x128_0_0_0_0
abbrev rRowZ : Rect S8x1x128x128 := Rect.unit (s := S8x1x128x128) ![0, 0, 0, 0] S8x1x128x128.size inb_S8x1x128x128_S8x1x128x128_0_0_0_0
abbrev rOut : Rect S4x8x4x128x128 := Rect.unit (s := S4x8x4x128x128) ![0, 0, 0, 0, 0] S4x8x4x128x128.size inb_S4x8x4x128x128_S4x8x4x128x128_0_0_0_0_0

/-- The four differences of a tile `x0` with its following t-row `x1` and z-row `x2`, as the body's one stored value. -/
def stored (x0 : Vec F S8x4x128x128 .f32) (x1 : Vec F S1x4x128x128 .f32) (x2 : Vec F S8x1x128x128 .f32) : FVec F S4x8x4x128x128 .f32 :=
  k0_pay1 (k0_pay2 (View.ld x0 rTile)) (k0_pay3 (View.ld x0 rTile)) (k0_pay4 (View.ld x0 rTile) (View.ld x2 rRowZ))
    (k0_pay5 (View.ld x0 rTile)) (k0_pay6 (View.ld x0 rTile) (View.ld x1 rRowT))

/-- The output window's buffer after the body: its one store, over the whole buffer. -/
def out3 (x0 : Vec F S8x4x128x128 .f32) (x1 : Vec F S1x4x128x128 .f32) (x2 : Vec F S8x1x128x128 .f32) : Vec F S4x8x4x128x128 .f32 :=
  View.canon [⟨rOut, stored x0 x1 x2⟩]

/-- The one store covers the buffer. -/
theorem cover3 (p0 : Vec F S4x8x4x128x128 .f32) (y : S4x8x4x128x128.Idx) :
    ∃ pc ∈ ([⟨rOut, p0⟩] : List (View.Piece (Elt F) S4x8x4x128x128 .f32)), y ∈ pc.1.set :=
  View.cover_of_tiled [⟨rOut, p0⟩] S4x8x4x128x128.size (by rfl) y

/-! ## The body's triple -/

set_option maxHeartbeats 1000000 in
/-- The body on whole staging memrefs, the inputs' at contents `x0 x1 x2` and the output's at anything, runs to the
    continuation with the inputs' as they were and the output's at `out3` of them. -/
theorem sound_kernel (c : Dev nD) (E : Set ℕ) (i : grid0.Coords)
    (arg2 : Memref sig .tc .vmem S8x4x128x128 .f32) (harg2 : arg2.IsWhole) (arg3 : Memref sig .tc .vmem S1x4x128x128 .f32) (harg3 : arg3.IsWhole)
    (arg4 : Memref sig .tc .vmem S8x1x128x128 .f32) (harg4 : arg4.IsWhole) (arg5 : Memref sig .tc .vmem S4x8x4x128x128 .f32) (harg5 : arg5.IsWhole)
    (x0 : Vec F S8x4x128x128 .f32) (x1 : Vec F S1x4x128x128 .f32) (x2 : Vec F S8x1x128x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out3 x0 x1 x2)) -∗ K ⟨⟩))
      ⊢ wp frame (wpE (defs₀ (F := F)) Variants.none c none) E (cc0__nabla4d_kernel i arg2 harg2 arg3 harg3 arg4 harg4 arg5 harg5) K := by
  simp only [cc0__nabla4d_kernel_eq_skeleton]; unfold cc0__nabla4d_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data -/

/-- The proof data of the one pipeline on core `c`: the arrays as the region finds them; after the body at point `t`
    each input window's buffer still at its block and the output's at `out3` of the three blocks; the invariant the
    kernel's scratch (it has none); the argument array's full share dealt among the three input windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.scopedRest (Ix := Unit) (Name := ℕ) (U := UR sig nD τ) (Lvl := ℕ) (Val := Elt F) spec0 c
  q := Cert.Nabla.winShare
  owed _ := 0

/-- The proof data's arrays are the region-entry contents. -/
theorem A_eq (c : Dev nD) (w : Fin cfg0.W) : (dats m 0 c).A w = V m c (Pipeline.arrRef spec0 w) := by
  dsimp only [dats]

theorem q_eq (c : Dev nD) : (dats m 0 c).q = Cert.Nabla.winShare := by dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = out3 (iblk m c 0 t) (iblk m c 1 t) (iblk m c 2 t) := by dsimp only [dats]

/-- Each input window is fetched at every point, so its current buffer holds its block there. -/
theorem before_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)
theorem before_2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Tiles

end
-- ==== Proof.KernelIdealShares.lean ====
/-
  The three input windows read one array; the output window writes another. At entry the two buffers behind
  them are each held whole at the full share. This module shows that this is enough for what the windows hold at
  entry: the full share of the argument array is cut in two (left half, right half) and its right half in two
  again, which gives the three input windows their pairwise disjoint pieces, each a points-to of the whole array
  at the same contents; the output array passes to its window unchanged.
-/
import proofs.«105243_j44848048504983_1_alg».proof.Proof.Shares
import proofs.«105243_j44848048504983_1_alg».proof.Proof.Gen.KernelIdeal.Launch
import Idealize.ShloMosaic.Lib.Pipeline.Frame

noncomputable section

namespace Cert.KernelIdeal.Shares

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode

/-- The four windows sit on two buffers: the argument array (windows 0, 1, 2) and the result array (window 3). -/
theorem arrRef_image : (Finset.univ.image (Pipeline.arrRef spec0) : Finset (Ref sig .tc)) = {main_arg0, main_v0} := by decide

variable {F : FTy → Type} [FloatOps F]

local notation "𝕄" => MT nD τ sig Unit (Elt F) ℕ (UR sig nD τ) ℕ

/-- The share each window holds of its array once the input shares are the dealt ones: an input window holds its
    dealt piece, the output window the full share. -/
theorem share_eq (c : Dev nD) (dat : Pipeline.Dat τ (Elt F) Unit ℕ (UR sig nD τ) ℕ cfg0 c) (hq : dat.q = Cert.Nabla.winShare) :
    dat.share 0 = fullShare.left ∧ dat.share 1 = fullShare.right.left ∧ dat.share 2 = fullShare.right.right ∧ dat.share 3 = fullShare := by
  unfold Pipeline.Dat.share
  rw [hq]
  exact ⟨rfl, rfl, rfl, rfl⟩

/-- The two buffers, each whole at the full share at contents `V`, give the four windows' arrays at entry: every
    window's array is its whole buffer, its entry contents are `V` of that buffer (`hA`), and the full share of the
    argument array is the join of the three input windows' shares (a share is the join of its left and right
    halves, used at the full share and again at its right half). -/
theorem hsplit (c : Dev nD)
    (dat : Pipeline.Dat τ (Elt F) Unit ℕ (UR sig nD τ) ℕ cfg0 c) (hq : dat.q = Cert.Nabla.winShare)
    (V : (b : Ref sig .tc) → Buf (Elt F) ((c.tc : Thread nD τ).loc b)) (hA : ∀ w, dat.A w = V (Pipeline.arrRef spec0 w)) :
    (Pipeline.arrBufs spec0 c V : sProp 𝕄) ⊢ dat.arrays (dat.arrAt · 0) := by
  obtain ⟨s0, s1, s2, s3⟩ := share_eq c dat hq
  -- each window's entry points-to, rewritten over its buffer: the array's element set is the whole buffer's, the
  -- contents before any write-back are the entry contents
  have e0 : ((cfg0.win 0).arr.view.loc (c.tc : Thread nD τ) ↦[(cfg0.win 0).arr.view.set]{dat.share 0} dat.arrAt 0 0 : sProp 𝕄)
      = ((c.tc : Thread nD τ).loc main_arg0 ↦{fullShare.left} V main_arg0) := by
    rw [(arr_whole0 0).set_eq_univ, s0]; show (_ ↦{_} dat.A 0) = _; rw [hA]
  have e1 : ((cfg0.win 1).arr.view.loc (c.tc : Thread nD τ) ↦[(cfg0.win 1).arr.view.set]{dat.share 1} dat.arrAt 1 0 : sProp 𝕄)
      = ((c.tc : Thread nD τ).loc main_arg0 ↦{fullShare.right.left} V main_arg0) := by
    rw [(arr_whole0 1).set_eq_univ, s1]; show (_ ↦{_} dat.A 1) = _; rw [hA]
  have e2 : ((cfg0.win 2).arr.view.loc (c.tc : Thread nD τ) ↦[(cfg0.win 2).arr.view.set]{dat.share 2} dat.arrAt 2 0 : sProp 𝕄)
      = ((c.tc : Thread nD τ).loc main_arg0 ↦{fullShare.right.right} V main_arg0) := by
    rw [(arr_whole0 2).set_eq_univ, s2]; show (_ ↦{_} dat.A 2) = _; rw [hA]
  have e3 : ((cfg0.win 3).arr.view.loc (c.tc : Thread nD τ) ↦[(cfg0.win 3).arr.view.set]{dat.share 3} dat.arrAt 3 0 : sProp 𝕄)
      = ((c.tc : Thread nD τ).loc main_v0 ↦{fullShare} V main_v0) := by
    rw [(arr_whole0 3).set_eq_univ, s3]; show (_ ↦{_} dat.A 3) = _; rw [hA]
  unfold Pipeline.arrBufs Pipeline.Dat.arrays
  rw [arrRef_image, bigSep_W0, bigSep_insert (by decide), bigSep_singleton]
  beta_reduce
  rw [e0, e1, e2, e3]
  refine (show (iprop(((c.tc : Thread nD τ).loc main_arg0 ↦{fullShare} V main_arg0) ∗ ((c.tc : Thread nD τ).loc main_v0 ↦{fullShare} V main_v0)) : sProp 𝕄) ⊢ _ from ?_)
  iintro ⟨Ha, Hv⟩
  -- the full share is its left half joined with its right half
  ihave Ha := (pointsTo_share (PosShare.mem_left_op_right fullShare)).1 $$ Ha
  icases Ha with ⟨H0, Hr⟩
  -- and the right half is its own two halves joined
  ihave Hr := (pointsTo_share (PosShare.mem_left_op_right fullShare.right)).1 $$ Hr
  icases Hr with ⟨H1, H2⟩
  isplitl [H0]; · iexact H0
  isplitl [H1]; · iexact H1
  isplitl [H2]; · iexact H2
  iexact Hv

end Cert.KernelIdeal.Shares

end
-- ==== Proof.KernelIdealRun.lean ====
/-
  The idealized kernel's launch and its frame.

  The pipeline fetches the three input windows and writes the output window back at each of the 64 grid points; the
  body's obligation at a point is proved beside the proof data. The argument array is read through three windows at
  once, so its full share is dealt among them at the region's entry and every window's array is found again at the
  end: the result at what the points wrote back, the argument as launched.
-/
import proofs.«105243_j44848048504983_1_alg».proof.Proof.KernelIdealTiles
import proofs.«105243_j44848048504983_1_alg».proof.Proof.LibSharedLaunch
import proofs.«105243_j44848048504983_1_alg».proof.Proof.KernelIdealShares
set_option maxRecDepth 16384

noncomputable section

namespace Cert.KernelIdeal.Tiles

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every weakly fair execution of the program terminates, and every final state has each window's array at what the
    library computes from the proof data and every other unscoped buffer as the region found it. The three input
    windows read one array: the launch is the one for windows that share an array. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := fun c => Cert.KernelIdeal.Shares.hsplit c (dats m 0 c) (q_eq m c) (V m c) (A_eq m c)) (hΦ := fun _ _ => rfl)

/-- The frame: the program runs to the end without a fault and the argument array ends as launched (an input
    window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

end Cert.KernelIdeal.Tiles

end
-- ==== Proof.Spec.lean ====
/-
  The 4-D forward-difference stack, as one function of the argument array.

  For an array `x` over (t, z, y, w) ∈ 32 × 64 × 128 × 128 the result has a leading axis `k` of extent 4 naming the
  axis differenced: k = 0 differences along w, k = 1 along y, k = 2 along z, k = 3 along t. Entry (k, t, z, y, w)
  is x(next) − x(here) where "next" is the index one step further along axis k, and 0 at the last index of that
  axis (the zero boundary); every entry is then scaled by the float word of 1.0.

  `blockDiffAt` is the same difference read inside one tile of 8 × 4 × 128 × 128: along w and y the tile holds both
  ends of every difference and the boundary is the array's; along z and t the last row of the tile takes its
  "next" entry from a separate one-row array (the row that follows the tile in the whole array, or the tile's own
  last row again when the tile is the last one along that axis).
-/
import Idealize.ShloMosaic.PureOps.Ideal
import Idealize.ShloMosaic.Lib.ValueIdx

noncomputable section

namespace Cert.Nabla

open Idealize.ShloMosaic Idealize.ShloMosaic.ValueIdx

/-- The float word of 1.0, read at the ideal instance. -/
abbrev one : Ideal .f32 := Ideal.ofBits .f32 0x3F800000#32

/-- The unscaled forward difference of `x` along axis `k` at (t, z, y, w): x(next) − x(here), and 0 at the last
    index of the differenced axis. -/
def diffAt (x : FVec Ideal ⟨4, ![32, 64, 128, 128]⟩ .f32) (k : Fin 4) (t : Fin 32) (z : Fin 64) (y : Fin 128) (w : Fin 128) :
    Ideal .f32 :=
  match k with
  | ⟨0, _⟩ => if h : w.val + 1 < 128 then x (ix4 t z y ⟨w.val + 1, h⟩) - x (ix4 t z y w) else 0
  | ⟨1, _⟩ => if h : y.val + 1 < 128 then x (ix4 t z ⟨y.val + 1, h⟩ w) - x (ix4 t z y w) else 0
  | ⟨2, _⟩ => if h : z.val + 1 < 64 then x (ix4 t ⟨z.val + 1, h⟩ y w) - x (ix4 t z y w) else 0
  | ⟨3, _⟩ => if h : t.val + 1 < 32 then x (ix4 ⟨t.val + 1, h⟩ z y w) - x (ix4 t z y w) else 0

/-- The forward-difference stack of `x`: entry (k, t, z, y, w) is the difference along axis `k`, scaled by 1.0. -/
def nabla (x : FVec Ideal ⟨4, ![32, 64, 128, 128]⟩ .f32) : FVec Ideal ⟨5, ![4, 32, 64, 128, 128]⟩ .f32 :=
  fun i => diffAt x (i 0) (i 1) (i 2) (i 3) (i 4) * one

/-- The scaled forward difference inside one tile `v0` of 8 × 4 × 128 × 128, with `v1` the one t-row and `v2` the one
    z-row that follow the tile: along w and y both ends are in the tile and the last index gives 0; along z (resp. t)
    the tile's last row is differenced against `v2` (resp. `v1`). -/
def blockDiffAt (v0 : FVec Ideal ⟨4, ![8, 4, 128, 128]⟩ .f32) (v1 : FVec Ideal ⟨4, ![1, 4, 128, 128]⟩ .f32)
    (v2 : FVec Ideal ⟨4, ![8, 1, 128, 128]⟩ .f32) (k : Fin 4) (a : Fin 8) (b : Fin 4) (y : Fin 128) (w : Fin 128) : Ideal .f32 :=
  match k with
  | ⟨0, _⟩ => if h : w.val + 1 < 128 then (v0 (ix4 a b y ⟨w.val + 1, h⟩) - v0 (ix4 a b y w)) * one else 0
  | ⟨1, _⟩ => if h : y.val + 1 < 128 then (v0 (ix4 a b ⟨y.val + 1, h⟩ w) - v0 (ix4 a b y w)) * one else 0
  | ⟨2, _⟩ => if h : b.val + 1 < 4 then (v0 (ix4 a ⟨b.val + 1, h⟩ y w) - v0 (ix4 a b y w)) * one
              else (v2 (ix4 a (0 : Fin 1) y w) - v0 (ix4 a b y w)) * one
  | ⟨3, _⟩ => if h : a.val + 1 < 8 then (v0 (ix4 ⟨a.val + 1, h⟩ b y w) - v0 (ix4 a b y w)) * one
              else (v1 (ix4 (0 : Fin 1) b y w) - v0 (ix4 a b y w)) * one

end Cert.Nabla

end
-- ==== Proof.Finite.lean ====
/-
  From the finiteness precondition to "every entry is a real number".

  The precondition compares |x| entrywise (ordered less-than) against the float word of +∞ and takes the conjunction
  of all the comparison bits. When that conjunction is 1, every single bit is 1, so |x i| < ⊤ at every index; on the
  extended reals |u| = max u (−u) is ⊤ exactly when u is ⊤ or ⊥, so each entry is the image of a real number.

  The second statement records why this matters: on the extended reals u − u = 0 holds for a real u, and fails for
  u = ⊤ or u = ⊥ (where the difference is ⊥).
-/
import proofs.«105243_j44848048504983_1_alg».proof.Proof.Gen.Pre_finite_inputs
import Idealize.ShloMosaic.Lib.ReduceAll
import Idealize.ShloMosaic.Lib.ValueIdx
import Idealize.ShloMosaic.PureOps.Ideal

noncomputable section

namespace Cert.Nabla

open Idealize.ShloMosaic Idealize.ShloMosaic.ValueIdx

/-- The float word 0x7F800000 (sign 0, exponent all ones, significand 0) denotes +∞. -/
theorem ofBits_inf : Ideal.ofBits .f32 0x7F800000#32 = (⊤ : EReal) := by
  simp [Ideal.ofBits, Ideal.ieee]

/-- An extended real whose absolute value max u (−u) lies strictly below ⊤ is a real number: at u = ⊤ the maximum is
    ⊤ through its first argument, at u = ⊥ through its second (−⊥ = ⊤). -/
theorem real_of_abs_lt_top (u : EReal) (hu : max u (-u) < ⊤) : ∃ r : ℝ, u = ((r : ℝ) : EReal) := by
  induction u using EReal.rec with
  | bot => exact absurd hu (by simp)
  | coe r => exact ⟨r, rfl⟩
  | top => exact absurd hu (by simp)

/-- Under the finiteness precondition every entry of the array is a real number. -/
theorem real_of_pre [Cert.Pre_finite_inputs.Facts] (x : FVec Ideal Cert.Pre_finite_inputs.S32x64x128x128 .f32)
    (h : Cert.Pre_finite_inputs.fn (F := Ideal) x = fun _ => 1#1) : ∀ i, ∃ r : ℝ, x i = ((r : ℝ) : EReal) := by
  intro i
  -- the one bit of the result, which the hypothesis says is 1
  have h0 := congrFun h ix0
  dsimp only [Cert.Pre_finite_inputs.fn] at h0
  -- a conjunction over all four axes that is 1 has a 1 at every index
  haveI : Subsingleton Cert.Pre_finite_inputs.S_.Idx := ⟨fun a b => funext fun d => d.elim0⟩
  have hi := Host.reduce_andi_all _ _ _ _ _ h0 i
  -- that bit is the comparison |x i| < +∞
  change Ideal.cmp .olt (max (x i) (-(x i))) (Ideal.ofBits .f32 0x7F800000#32) = 1#1 at hi
  rw [ofBits_inf] at hi
  refine real_of_abs_lt_top (x i) ?_
  by_contra hn
  simp [Ideal.cmp, hn] at hi

/-- For a real number u, read on the extended reals, u − u = 0 (the difference of two reals is the real difference). -/
theorem sub_self_of_real (u : EReal) (h : ∃ r : ℝ, u = ((r : ℝ) : EReal)) : u - u = 0 := by
  obtain ⟨r, rfl⟩ := h
  rw [← EReal.coe_sub, sub_self, EReal.coe_zero]

end Cert.Nabla

end
-- ==== Proof.PointWritesBlock.lean ====
/-
  One grid point's write-back is one block of the forward-difference stack.

  The kernel tiles the argument array x over (t, z, y, w) ∈ 32 × 64 × 128 × 128 in tiles of 8 × 4 × 128 × 128; grid point
  (i, j), i ≤ 3, j ≤ 15, holds the tile at rows t ∈ [8 i, 8 i + 8), z ∈ [4 j, 4 j + 4), the one t-row at t = min (8 i + 8) 31 and the
  one z-row at z = min (4 j + 4) 63, and writes block (0, i, j, 0, 0) of the result, whose entry (k, a, b, y, w) is the result's
  entry (k, 8 i + a, 4 j + b, y, w).

  The stored value at (k, a, b, y, w) is the tile's difference along axis k (`Cert.Nabla.blockDiffAt`); it is compared with the
  array's difference (`Cert.Nabla.diffAt`) at (8 i + a, 4 j + b, y, w), axis by axis:
    · along w and y both ends of the difference lie in the tile and the tile's last index is the array's, so the two sides
      split on the same condition; past the last index the tile holds 0 and the array 0 · 1.0;
    · along z (resp. t) the next row is the tile's own while b < 3 (resp. a < 7); at the tile's last row it is the z-row
      (resp. t-row), which is the array's row z + 1 (resp. t + 1) unless the tile is the last one, where the row is clamped
      to the array's last row 63 (resp. 31): the tile then holds (u − u) · 1.0 for the entry u itself, and u − u = 0 because
      every entry is a real number, which is the array's boundary value 0 · 1.0.
-/
import proofs.«105243_j44848048504983_1_alg».proof.Proof.KernelIdealTiles
import proofs.«105243_j44848048504983_1_alg».proof.Proof.Spec
import proofs.«105243_j44848048504983_1_alg».proof.Proof.Finite
import Idealize.ShloMosaic.Lib.Pipeline.Value
import Idealize.ShloMosaic.Lib.ValueIdx

noncomputable section

namespace Cert.KernelIdeal.Whole

open Cert.KernelIdeal Cert.KernelIdeal.Gen Cert.KernelIdeal.Tiles
open Idealize.ShloMosaic Idealize.ShloMosaic.TcCoe Idealize.ShloMosaic.ValueIdx
open Idealize.ShloMosaic.Pipeline (Dat)

open Cert.Nabla

/-! ## A tile's differences are the array's

Throughout, `x` is the whole array, (I, J) the tile's index (I ≤ 3 along t, J ≤ 15 along z), `v0` the tile, `v1` the
t-row and `v2` the z-row that follow it. The three hypotheses say which array entry each block entry is: the tile's
(a, b, y, w) is x(8 I + a, 4 J + b, y, w); the t-row's (0, b, y, w) is x(min (8 I + 8) 31, 4 J + b, y, w); the z-row's
(a, 0, y, w) is x(8 I + a, min (4 J + 4) 63, y, w). The array's rows are named by any `T`, `Z` with the stated values,
so that no equation between bounded-index terms is ever needed. -/

section Entry

variable (x : FVec Ideal S32x64x128x128 .f32) (hfin : ∀ i, ∃ r : ℝ, x i = ((r : ℝ) : EReal))
variable (v0 : FVec Ideal S8x4x128x128 .f32) (v1 : FVec Ideal S1x4x128x128 .f32) (v2 : FVec Ideal S8x1x128x128 .f32)
variable (I J : Nat) (hI : I ≤ 3) (hJ : J ≤ 15)
variable (h0 : ∀ (a : Fin 8) (b : Fin 4) (y w : Fin 128) (T : Fin 32) (Z : Fin 64), T.val = I * 8 + a.val → Z.val = J * 4 + b.val →
    v0 (ix4 a b y w) = x (ix4 T Z y w))
variable (h1 : ∀ (b : Fin 4) (y w : Fin 128) (T : Fin 32) (Z : Fin 64), T.val = min (I * 8 + 8) 31 → Z.val = J * 4 + b.val →
    v1 (ix4 (0 : Fin 1) b y w) = x (ix4 T Z y w))
variable (h2 : ∀ (a : Fin 8) (y w : Fin 128) (T : Fin 32) (Z : Fin 64), T.val = I * 8 + a.val → Z.val = min (J * 4 + 4) 63 →
    v2 (ix4 a (0 : Fin 1) y w) = x (ix4 T Z y w))

include h0 in
/-- Along w both ends of a difference lie in the tile, and the tile's last w is the array's last w: the same
    condition decides both sides, and past it the tile's 0 is the array's 0 scaled. -/
theorem diff_w (a : Fin 8) (b : Fin 4) (y w : Fin 128) (T : Fin 32) (Z : Fin 64) (hT : T.val = I * 8 + a.val) (hZ : Z.val = J * 4 + b.val) :
    blockDiffAt v0 v1 v2 0 a b y w = diffAt x 0 T Z y w * one := by
  show (if h : w.val + 1 < 128 then (v0 (ix4 a b y ⟨w.val + 1, h⟩) - v0 (ix4 a b y w)) * one else 0)
    = (if h : w.val + 1 < 128 then x (ix4 T Z y ⟨w.val + 1, h⟩) - x (ix4 T Z y w) else 0) * one
  by_cases h : w.val + 1 < 128
  · rw [dif_pos h, dif_pos h, h0 a b y ⟨w.val + 1, h⟩ T Z hT hZ, h0 a b y w T Z hT hZ]
  · rw [dif_neg h, dif_neg h, zero_mul]

include h0 in
/-- Along y likewise. -/
theorem diff_y (a : Fin 8) (b : Fin 4) (y w : Fin 128) (T : Fin 32) (Z : Fin 64) (hT : T.val = I * 8 + a.val) (hZ : Z.val = J * 4 + b.val) :
    blockDiffAt v0 v1 v2 1 a b y w = diffAt x 1 T Z y w * one := by
  show (if h : y.val + 1 < 128 then (v0 (ix4 a b ⟨y.val + 1, h⟩ w) - v0 (ix4 a b y w)) * one else 0)
    = (if h : y.val + 1 < 128 then x (ix4 T Z ⟨y.val + 1, h⟩ w) - x (ix4 T Z y w) else 0) * one
  by_cases h : y.val + 1 < 128
  · rw [dif_pos h, dif_pos h, h0 a b ⟨y.val + 1, h⟩ w T Z hT hZ, h0 a b y w T Z hT hZ]
  · rw [dif_neg h, dif_neg h, zero_mul]

include hfin hJ h0 h2 in
/-- Along z: inside the tile (b < 3) the next row is the tile's; at the tile's last row the next row is the z-row,
    which is row 4 J + 4 = z + 1 of the array when the tile is not the last (J < 15); when it is (J = 15, z = 63) the
    z-row is row 63 again, the tile holds u − u for the real number u = x(t, 63, y, w), which is 0, as is the array's
    boundary entry. -/
theorem diff_z (a : Fin 8) (b : Fin 4) (y w : Fin 128) (T : Fin 32) (Z : Fin 64) (hT : T.val = I * 8 + a.val) (hZ : Z.val = J * 4 + b.val) :
    blockDiffAt v0 v1 v2 2 a b y w = diffAt x 2 T Z y w * one := by
  show (if h : b.val + 1 < 4 then (v0 (ix4 a ⟨b.val + 1, h⟩ y w) - v0 (ix4 a b y w)) * one
      else (v2 (ix4 a (0 : Fin 1) y w) - v0 (ix4 a b y w)) * one)
    = (if h : Z.val + 1 < 64 then x (ix4 T ⟨Z.val + 1, h⟩ y w) - x (ix4 T Z y w) else 0) * one
  have hb : b.val < 4 := b.isLt
  by_cases h : b.val + 1 < 4
  · have hz : Z.val + 1 < 64 := by omega
    rw [dif_pos h, dif_pos hz, h0 a ⟨b.val + 1, h⟩ y w T ⟨Z.val + 1, hz⟩ hT (by show Z.val + 1 = J * 4 + (b.val + 1); omega),
      h0 a b y w T Z hT hZ]
  · by_cases hz : Z.val + 1 < 64
    · rw [dif_neg h, dif_pos hz, h2 a y w T ⟨Z.val + 1, hz⟩ hT (by show Z.val + 1 = min (J * 4 + 4) 63; omega),
        h0 a b y w T Z hT hZ]
    · rw [dif_neg h, dif_neg hz, h2 a y w T Z hT (by omega), h0 a b y w T Z hT hZ,
        sub_self_of_real _ (hfin _)]

include hfin hI h0 h1 in
/-- Along t: the same with the t-row, the tile's last row a = 7, the last tile I = 3 and the array's last row t = 31. -/
theorem diff_t (a : Fin 8) (b : Fin 4) (y w : Fin 128) (T : Fin 32) (Z : Fin 64) (hT : T.val = I * 8 + a.val) (hZ : Z.val = J * 4 + b.val) :
    blockDiffAt v0 v1 v2 3 a b y w = diffAt x 3 T Z y w * one := by
  show (if h : a.val + 1 < 8 then (v0 (ix4 ⟨a.val + 1, h⟩ b y w) - v0 (ix4 a b y w)) * one
      else (v1 (ix4 (0 : Fin 1) b y w) - v0 (ix4 a b y w)) * one)
    = (if h : T.val + 1 < 32 then x (ix4 ⟨T.val + 1, h⟩ Z y w) - x (ix4 T Z y w) else 0) * one
  have ha : a.val < 8 := a.isLt
  by_cases h : a.val + 1 < 8
  · have ht : T.val + 1 < 32 := by omega
    rw [dif_pos h, dif_pos ht, h0 ⟨a.val + 1, h⟩ b y w ⟨T.val + 1, ht⟩ Z (by show T.val + 1 = I * 8 + (a.val + 1); omega) hZ,
      h0 a b y w T Z hT hZ]
  · by_cases ht : T.val + 1 < 32
    · rw [dif_neg h, dif_pos ht, h1 b y w ⟨T.val + 1, ht⟩ Z (by show T.val + 1 = min (I * 8 + 8) 31; omega) hZ,
        h0 a b y w T Z hT hZ]
    · rw [dif_neg h, dif_neg ht, h1 b y w T Z (by omega) hZ, h0 a b y w T Z hT hZ,
        sub_self_of_real _ (hfin _)]

include hfin hI hJ h0 h1 h2 in
/-- Every difference of the tile is the array's difference at the entry the tile's entry is, scaled. -/
theorem blockDiff_eq (k : Fin 4) (a : Fin 8) (b : Fin 4) (y w : Fin 128) (T : Fin 32) (Z : Fin 64) (hT : T.val = I * 8 + a.val)
    (hZ : Z.val = J * 4 + b.val) : blockDiffAt v0 v1 v2 k a b y w = diffAt x k T Z y w * one :=
  match k with
  | ⟨0, _⟩ => diff_w x v0 v1 v2 I J h0 a b y w T Z hT hZ
  | ⟨1, _⟩ => diff_y x v0 v1 v2 I J h0 a b y w T Z hT hZ
  | ⟨2, _⟩ => diff_z x hfin v0 v1 v2 I J hJ h0 h2 a b y w T Z hT hZ
  | ⟨3, _⟩ => diff_t x hfin v0 v1 v2 I J hI h0 h1 a b y w T Z hT hZ

end Entry

/-! ## One point's write-back -/

theorem zeros4 : (![0, 0, 0, 0] : Fin 4 → Nat) = fun _ => 0 := funext fun a => by fin_cases a <;> rfl
theorem zeros5 : (![0, 0, 0, 0, 0] : Fin 5 → Nat) = fun _ => 0 := funext fun a => by fin_cases a <;> rfl

/-- The printed index maps, decided once over the 64 grid points: the output's block index is (0, i, j, 0, 0) with
    i ≤ 3 and j ≤ 15; the tile's is (i, j, 0, 0); the t-row's is (min (8 i + 8) 31, j, 0, 0); the z-row's is
    (i, min (4 j + 4) 63, 0, 0). -/
theorem block_indices : ∀ t : Fin cfg0.N,
    win0_3.index t (0 : Fin 5) = 0 ∧ win0_3.index t (1 : Fin 5) ≤ 3 ∧ win0_3.index t (2 : Fin 5) ≤ 15
    ∧ win0_3.index t (3 : Fin 5) = 0 ∧ win0_3.index t (4 : Fin 5) = 0
    ∧ win0_0.index t (0 : Fin 4) = win0_3.index t (1 : Fin 5) ∧ win0_0.index t (1 : Fin 4) = win0_3.index t (2 : Fin 5)
    ∧ win0_0.index t (2 : Fin 4) = 0 ∧ win0_0.index t (3 : Fin 4) = 0
    ∧ win0_1.index t (0 : Fin 4) = min (win0_3.index t (1 : Fin 5) * 8 + 8) 31 ∧ win0_1.index t (1 : Fin 4) = win0_3.index t (2 : Fin 5)
    ∧ win0_1.index t (2 : Fin 4) = 0 ∧ win0_1.index t (3 : Fin 4) = 0
    ∧ win0_2.index t (0 : Fin 4) = win0_3.index t (1 : Fin 5) ∧ win0_2.index t (1 : Fin 4) = min (win0_3.index t (2 : Fin 5) * 4 + 4) 63
    ∧ win0_2.index t (2 : Fin 4) = 0 ∧ win0_2.index t (3 : Fin 4) = 0 :=
  (by decide +kernel : ∀ t : Fin grid0.N, _)

/-- The body's stored value at block entry j is the array's difference stack at the entry `e3 j` the block entry
    is, once the stored value is the tile's differences (`hpay`) and `e3` places (k, a, b, y, w) at
    (k, 8 I + a, 4 J + b, y, w). -/
theorem stored_entry (x : FVec Ideal S32x64x128x128 .f32) (hfin : ∀ i, ∃ r : ℝ, x i = ((r : ℝ) : EReal))
    (v0 : Vec Ideal S8x4x128x128 .f32) (v1 : Vec Ideal S1x4x128x128 .f32) (v2 : Vec Ideal S8x1x128x128 .f32)
    (hpay : ∀ (k : Fin 4) (a : Fin 8) (b : Fin 4) (y : Fin 128) (w : Fin 128),
      k0_pay1 (F := Ideal) (k0_pay2 v0) (k0_pay3 v0) (k0_pay4 v0 v2) (k0_pay5 v0) (k0_pay6 v0 v1) (ix5 k a b y w) = blockDiffAt v0 v1 v2 k a b y w)
    (I J : Nat) (hI : I ≤ 3) (hJ : J ≤ 15)
    (h0 : ∀ (a : Fin 8) (b : Fin 4) (y w : Fin 128) (T : Fin 32) (Z : Fin 64), T.val = I * 8 + a.val → Z.val = J * 4 + b.val →
      v0 (ix4 a b y w) = x (ix4 T Z y w))
    (h1 : ∀ (b : Fin 4) (y w : Fin 128) (T : Fin 32) (Z : Fin 64), T.val = min (I * 8 + 8) 31 → Z.val = J * 4 + b.val →
      v1 (ix4 (0 : Fin 1) b y w) = x (ix4 T Z y w))
    (h2 : ∀ (a : Fin 8) (y w : Fin 128) (T : Fin 32) (Z : Fin 64), T.val = I * 8 + a.val → Z.val = min (J * 4 + 4) 63 →
      v2 (ix4 a (0 : Fin 1) y w) = x (ix4 T Z y w))
    (e3 : S4x8x4x128x128.Idx → S4x32x64x128x128.Idx)
    (c3 : ∀ j, (e3 j 0).val = (j 0).val ∧ (e3 j 1).val = I * 8 + (j 1).val ∧ (e3 j 2).val = J * 4 + (j 2).val
      ∧ (e3 j 3).val = (j 3).val ∧ (e3 j 4).val = (j 4).val)
    (j : S4x8x4x128x128.Idx) :
    k0_pay1 (F := Ideal) (k0_pay2 v0) (k0_pay3 v0) (k0_pay4 v0 v2) (k0_pay5 v0) (k0_pay6 v0 v1) j = nabla x (e3 j) := by
  obtain ⟨k, a, b, y, w, rfl⟩ : ∃ k a b y w, j = ix5 k a b y w := ⟨j 0, j 1, j 2, j 3, j 4, eq_ix5 j⟩
  obtain ⟨q0, q1, q2, q3, q4⟩ := c3 (ix5 k a b y w)
  -- the array entry, coordinate by coordinate
  have he : e3 (ix5 k a b y w) = ix5 k (e3 (ix5 k a b y w) 1) (e3 (ix5 k a b y w) 2) y w := by
    funext d; apply Fin.ext
    match d with
    | ⟨0, _⟩ => exact q0
    | ⟨1, _⟩ => rfl
    | ⟨2, _⟩ => rfl
    | ⟨3, _⟩ => exact q3
    | ⟨4, _⟩ => exact q4
  rw [hpay, he]
  exact blockDiff_eq x hfin v0 v1 v2 I J hI hJ h0 h1 h2 k a b y w _ _ q1 q2

/-- What grid point t = (i, j) writes back to the result is block (0, i, j, 0, 0) of the difference stack of the
    argument array: block entry (k, a, b, y, w) is array entry (k, 8 i + a, 4 j + b, y, w), the body's stored value
    there is the tile's difference, and the tile's, t-row's and z-row's entries are the array's at the places the
    index maps name. -/
theorem point_writes_block (m : (ℓ : Loc nD τ sig) → Buf (Elt Ideal) ℓ) (c : Dev nD)
    (hpay : ∀ (v0 : Vec Ideal S8x4x128x128 .f32) (v1 : Vec Ideal S1x4x128x128 .f32) (v2 : Vec Ideal S8x1x128x128 .f32)
        (k : Fin 4) (a : Fin 8) (b : Fin 4) (y : Fin 128) (w : Fin 128),
      k0_pay1 (F := Ideal) (k0_pay2 v0) (k0_pay3 v0) (k0_pay4 v0 v2) (k0_pay5 v0) (k0_pay6 v0 v1) (ix5 k a b y w)
        = Cert.Nabla.blockDiffAt v0 v1 v2 k a b y w)
    (hfin : ∀ i, ∃ r : ℝ, (V m c main_arg0 : FVec Ideal S32x64x128x128 .f32) i = ((r : ℝ) : EReal))
    (t : Fin cfg0.N) :
    (dats (F := Ideal) m 0 c).flushed 3 t = ((cfg0.win 3).blk t).view.read (Elt Ideal) (Cert.Nabla.nabla (V m c main_arg0)) := by
  show (cfg0.win 3).cut (grid0.coords t) ((dats (F := Ideal) m 0 c).after 3 t) = _
  rw [after_3]
  unfold out3
  rw [View.canon_unit_zero zeros5]
  unfold stored
  simp only [View.ld_unit_zero (S := S8x4x128x128) zeros4, View.ld_unit_zero (S := S1x4x128x128) zeros4,
    View.ld_unit_zero (S := S8x1x128x128) zeros4]
  obtain ⟨f30, f31, f32, f33, f34, f00, f01, f02, f03, f10, f11, f12, f13, f20, f21, f22, f23⟩ := block_indices t
  funext j
  refine stored_entry (V m c main_arg0) hfin (iblk m c 0 t) (iblk m c 1 t) (iblk m c 2 t) (hpay _ _ _)
    (win0_3.index t (1 : Fin 5)) (win0_3.index t (2 : Fin 5)) f31 f32 ?_ ?_ ?_ (((cfg0.win 3).blk t).view.emb) ?_ j
  · -- the tile's entry (a, b, y, w) is the array's at (8 i + a, 4 j + b, y, w)
    intro a b y w T Z hT hZ
    show V m c main_arg0 (((cfg0.win 0).blk t).view.emb (ix4 a b y w)) = _
    refine congrArg _ (funext fun d => Fin.ext ?_)
    match d with
    | ⟨0, _⟩ => show win0_0.index t (0 : Fin 4) * 8 + 1 * a.val = T.val; omega
    | ⟨1, _⟩ => show win0_0.index t (1 : Fin 4) * 4 + 1 * b.val = Z.val; omega
    | ⟨2, _⟩ => show win0_0.index t (2 : Fin 4) * 128 + 1 * y.val = y.val; omega
    | ⟨3, _⟩ => show win0_0.index t (3 : Fin 4) * 128 + 1 * w.val = w.val; omega
  · -- the t-row's entry (0, b, y, w) is the array's at (min (8 i + 8) 31, 4 j + b, y, w)
    intro b y w T Z hT hZ
    show V m c main_arg0 (((cfg0.win 1).blk t).view.emb (ix4 (0 : Fin 1) b y w)) = _
    refine congrArg _ (funext fun d => Fin.ext ?_)
    match d with
    | ⟨0, _⟩ => show win0_1.index t (0 : Fin 4) * 1 + 1 * 0 = T.val; omega
    | ⟨1, _⟩ => show win0_1.index t (1 : Fin 4) * 4 + 1 * b.val = Z.val; omega
    | ⟨2, _⟩ => show win0_1.index t (2 : Fin 4) * 128 + 1 * y.val = y.val; omega
    | ⟨3, _⟩ => show win0_1.index t (3 : Fin 4) * 128 + 1 * w.val = w.val; omega
  · -- the z-row's entry (a, 0, y, w) is the array's at (8 i + a, min (4 j + 4) 63, y, w)
    intro a y w T Z hT hZ
    show V m c main_arg0 (((cfg0.win 2).blk t).view.emb (ix4 a (0 : Fin 1) y w)) = _
    refine congrArg _ (funext fun d => Fin.ext ?_)
    match d with
    | ⟨0, _⟩ => show win0_2.index t (0 : Fin 4) * 8 + 1 * a.val = T.val; omega
    | ⟨1, _⟩ => show win0_2.index t (1 : Fin 4) * 1 + 1 * 0 = Z.val; omega
    | ⟨2, _⟩ => show win0_2.index t (2 : Fin 4) * 128 + 1 * y.val = y.val; omega
    | ⟨3, _⟩ => show win0_2.index t (3 : Fin 4) * 128 + 1 * w.val = w.val; omega
  · -- the result's block entry (k, a, b, y, w) is the array's at (k, 8 i + a, 4 j + b, y, w)
    intro j
    refine ⟨?_, ?_, ?_, ?_, ?_⟩
    · show win0_3.index t (0 : Fin 5) * 4 + 1 * (j 0).val = (j 0).val; omega
    · show win0_3.index t (1 : Fin 5) * 8 + 1 * (j 1).val = win0_3.index t (1 : Fin 5) * 8 + (j 1).val; omega
    · show win0_3.index t (2 : Fin 5) * 4 + 1 * (j 2).val = win0_3.index t (2 : Fin 5) * 4 + (j 2).val; omega
    · show win0_3.index t (3 : Fin 5) * 128 + 1 * (j 3).val = (j 3).val; omega
    · show win0_3.index t (4 : Fin 5) * 128 + 1 * (j 4).val = (j 4).val; omega

end Cert.KernelIdeal.Whole

end
-- ==== Proof.BlocksCover.lean ====
/-
  The output window's blocks fill the result array.

  The result array has extents 4 × 32 × 64 × 128 × 128 over (k, t, z, y, w). At grid point (i, j) of the 4 × 16 grid the
  output window writes back the block of extents 4 × 8 × 4 × 128 × 128 at block index (0, i, j, 0, 0): the indices
  whose t-coordinate lies in [8 i, 8 i + 8) and whose z-coordinate lies in [4 j, 4 j + 4), with k, y and w ranging over
  their whole axes. An index (k, t, z, y, w) of the array therefore lies in the block of the point (t / 8, z / 4), and
  since t < 32 and z < 64 that point is one of the grid's. So the 64 blocks cover the array.
-/
import proofs.«105243_j44848048504983_1_alg».proof.Proof.KernelIdealTiles
import Idealize.ShloMosaic.Lib.Pipeline.Value
import Idealize.ShloMosaic.Lib.ValueIdx

noncomputable section

namespace Cert.KernelIdeal.Whole

open Cert.KernelIdeal Cert.KernelIdeal.Gen
open Idealize.ShloMosaic Idealize.ShloMosaic.TcCoe

variable {F : FTy → Type} [FloatOps F]

/-- Every block index (0, q1, q2, 0, 0) with q1 < 4 and q2 < 16 is the output window's at some grid point: the index
    map sends point (i, j) to (0, i, j, 0, 0), and the grid is 4 × 16. Checked once over the 64 points. -/
theorem block_index_onto : ∀ (q1 : Fin 4) (q2 : Fin 16), ∃ t : Fin cfg0.N, win0_3.index t = ![0, q1.val, q2.val, 0, 0] :=
  (by decide +kernel : ∀ (q1 : Fin 4) (q2 : Fin 16), ∃ t : Fin grid0.N, win0_3.index t = ![0, q1.val, q2.val, 0, 0])

/-- An index of the result array is in point `t`'s block iff on every axis its coordinate lies in the block's range:
    from (block index) × (block extent), for (block extent) entries. The block is a slice of the whole array by a
    rectangle of unit stride, whose index set is given axis by axis. -/
theorem mem_out_block (t : Fin cfg0.N) (i : S4x32x64x128x128.Idx) :
    i ∈ ((cfg0.win 3).blk t).view.set ↔ ∀ a : Fin 5, win0_3.index t a * S4x8x4x128x128.size a ≤ (i a).val ∧ (i a).val < win0_3.index t a * S4x8x4x128x128.size a + S4x8x4x128x128.size a := by
  show i ∈ ((View.whole main_v0).slice (win0_3.rect t)).set ↔ _
  rw [View.set_slice_whole, Rect.mem_set_unit]
  exact Iff.rfl

/-- The blocks cover the result array: (k, t, z, y, w) lies in the block of the point whose block index is
    (0, t / 8, z / 4, 0, 0). On the k, y and w axes the block starts at 0 and spans the whole axis; on the t axis
    8 (t / 8) ≤ t < 8 (t / 8) + 8 and on the z axis 4 (z / 4) ≤ z < 4 (z / 4) + 4. Every point writes its block back. -/
theorem blocks_cover (i : S4x32x64x128x128.Idx) :
    ∃ t : Fin cfg0.N, (cfg0.win 3).flush t = true ∧ i ∈ ((cfg0.win 3).blk t).view.set := by
  have h0 : (i 0).val < 4 := (i 0).isLt
  have h1 : (i 1).val < 32 := (i 1).isLt
  have h2 : (i 2).val < 64 := (i 2).isLt
  have h3 : (i 3).val < 128 := (i 3).isLt
  have h4 : (i 4).val < 128 := (i 4).isLt
  obtain ⟨t, ht⟩ := block_index_onto ⟨(i 1).val / 8, by omega⟩ ⟨(i 2).val / 4, by omega⟩
  have q0 : win0_3.index t (0 : Fin 5) = 0 := congrFun ht 0
  have q1 : win0_3.index t (1 : Fin 5) = (i 1).val / 8 := congrFun ht 1
  have q2 : win0_3.index t (2 : Fin 5) = (i 2).val / 4 := congrFun ht 2
  have q3 : win0_3.index t (3 : Fin 5) = 0 := congrFun ht 3
  have q4 : win0_3.index t (4 : Fin 5) = 0 := congrFun ht 4
  refine ⟨t, flush0_3 t, ?_⟩
  rw [mem_out_block]
  intro a
  match a with
  | ⟨0, _⟩ => show win0_3.index t (0 : Fin 5) * 4 ≤ (i 0).val ∧ (i 0).val < win0_3.index t (0 : Fin 5) * 4 + 4; omega
  | ⟨1, _⟩ => show win0_3.index t (1 : Fin 5) * 8 ≤ (i 1).val ∧ (i 1).val < win0_3.index t (1 : Fin 5) * 8 + 8; omega
  | ⟨2, _⟩ => show win0_3.index t (2 : Fin 5) * 4 ≤ (i 2).val ∧ (i 2).val < win0_3.index t (2 : Fin 5) * 4 + 4; omega
  | ⟨3, _⟩ => show win0_3.index t (3 : Fin 5) * 128 ≤ (i 3).val ∧ (i 3).val < win0_3.index t (3 : Fin 5) * 128 + 128; omega
  | ⟨4, _⟩ => show win0_3.index t (4 : Fin 5) * 128 ≤ (i 4).val ∧ (i 4).val < win0_3.index t (4 : Fin 5) * 128 + 128; omega

end Cert.KernelIdeal.Whole

end
-- ==== Proof.PayloadAt.lean ====
/-
  The kernel body's stored value, read at one index.

  The body computes, from the tile `v0` (8 × 4 × 128 × 128), the t-row `v1` and the z-row `v2` that follow it, four
  arrays of the tile's shape — the forward differences along w, y, z and t, each scaled by the float word of 1.0 — and
  stacks them along a new leading axis. Each array is a concatenation along the differenced axis: of the differences
  inside the tile (one slice of the tile, shifted by one, minus the unshifted slice) and of a last row, which is 0
  along w and y and the following row minus the tile's last row along z and t. Read at (k, a, b, y, w), the stack is
  `blockDiffAt` of the three arrays: one lemma per differenced axis, then the stack.
-/
import proofs.«105243_j44848048504983_1_alg».proof.Proof.Spec
import proofs.«105243_j44848048504983_1_alg».proof.Proof.Gen.KernelIdeal.Skeleton
import Idealize.ShloMosaic.Lib.Pipeline.Value
import Idealize.ShloMosaic.Lib.ValueIdx
import Idealize.ShloMosaic.Lib.ValueLayout

noncomputable section

namespace Cert.Nabla

open Idealize.ShloMosaic Idealize.ShloMosaic.ValueIdx Cert.KernelIdeal Cert.KernelIdeal.Gen

/-- A rank-4 slice at offsets (o0, o1, o2, o3), read at (a, b, c, d), is the source at the coordinates moved along
    by the offsets. -/
theorem slice4_apply {α : Type} {n0 n1 n2 n3 m0 m1 m2 m3 : Nat} (o0 o1 o2 o3 : Nat)
    (X : (⟨4, ![n0, n1, n2, n3]⟩ : Shape).Idx → α)
    (h : (⟨4, ![n0, n1, n2, n3]⟩ : Shape).Slices ![o0, o1, o2, o3] ⟨4, ![m0, m1, m2, m3]⟩)
    (a : Fin m0) (b : Fin m1) (c : Fin m2) (d : Fin m3) (a' : Fin n0) (b' : Fin n1) (c' : Fin n2) (d' : Fin n3)
    (ha : a'.val = o0 + a.val) (hb : b'.val = o1 + b.val) (hc : c'.val = o2 + c.val) (hd : d'.val = o3 + d.val) :
    extractStridedSlice ⟨4, ![m0, m1, m2, m3]⟩ ![o0, o1, o2, o3] X h (ix4 a b c d) = X (ix4 a' b' c' d') :=
  extractStridedSlice_apply _ _ _ _ _ (fun ax => by
    match ax with
    | ⟨0, _⟩ => exact ha
    | ⟨1, _⟩ => exact hb
    | ⟨2, _⟩ => exact hc
    | ⟨3, _⟩ => exact hd)

/-- The integer 0 converted to a float is the extended real 0. -/
theorem sitofp_zero : Scalar.sitofp (F := Ideal) .f32 0#32 = 0 := by
  rw [Ideal.scalar_sitofp_def]
  simp

/-- The difference along w: inside the tile up to the last column, which is 0. -/
theorem pay2_at (v0 : Vec Ideal S8x4x128x128 .f32) (v1 : Vec Ideal S1x4x128x128 .f32) (v2 : Vec Ideal S8x1x128x128 .f32)
    (a : Fin 8) (b : Fin 4) (y : Fin 128) (w : Fin 128) :
    k0_pay2 (F := Ideal) v0 (ix4 a b y w) = blockDiffAt v0 v1 v2 0 a b y w := by
  unfold k0_pay2
  by_cases h : w.val + 1 < 128
  · -- columns 0 … 126 are the first piece, at the same coordinates
    refine (concatenate_pair_apply_left (t := S8x4x128x128) (s₁ := S8x4x128x127) (s₂ := S8x4x128x1) (3 : Fin 4) _ _ _ (ix4 a b y w) rfl
      (ix4 a b y (⟨w.val, by omega⟩ : Fin 127)) (fun ax => by
        match ax with
        | ⟨0, _⟩ => rfl
        | ⟨1, _⟩ => rfl
        | ⟨2, _⟩ => rfl
        | ⟨3, _⟩ => rfl)).trans ?_
    rw [mulf_apply, subf_apply, broadcast_apply]
    rw [slice4_apply 0 0 0 1 v0 _ a b y (⟨w.val, by omega⟩ : Fin 127) a b y ⟨w.val + 1, h⟩
        (Nat.zero_add _).symm (Nat.zero_add _).symm (Nat.zero_add _).symm (Nat.add_comm _ _),
      slice4_apply 0 0 0 0 v0 _ a b y (⟨w.val, by omega⟩ : Fin 127) a b y w
        (Nat.zero_add _).symm (Nat.zero_add _).symm (Nat.zero_add _).symm (Nat.zero_add _).symm]
    show _ = (if h : w.val + 1 < 128 then (v0 (ix4 a b y ⟨w.val + 1, h⟩) - v0 (ix4 a b y w)) * one else 0)
    rw [dif_pos h]
    rfl
  · -- column 127 is the second piece: the zero column
    refine (concatenate_pair_apply_right (t := S8x4x128x128) (s₁ := S8x4x128x127) (s₂ := S8x4x128x1) (3 : Fin 4) _ _ _ (ix4 a b y w) rfl rfl
      (ix4 a b y (0 : Fin 1)) (fun ax hax => by
        match ax with
        | ⟨0, _⟩ => rfl
        | ⟨1, _⟩ => rfl
        | ⟨2, _⟩ => rfl
        | ⟨3, _⟩ => exact absurd rfl hax) (by
        show 0 + 127 = w.val
        omega)).trans ?_
    rw [broadcast_apply, sitofp_zero]
    show _ = (if h : w.val + 1 < 128 then (v0 (ix4 a b y ⟨w.val + 1, h⟩) - v0 (ix4 a b y w)) * one else 0)
    rw [dif_neg h]

/-- The difference along y: inside the tile up to the last row of y, which is 0. -/
theorem pay3_at (v0 : Vec Ideal S8x4x128x128 .f32) (v1 : Vec Ideal S1x4x128x128 .f32) (v2 : Vec Ideal S8x1x128x128 .f32)
    (a : Fin 8) (b : Fin 4) (y : Fin 128) (w : Fin 128) :
    k0_pay3 (F := Ideal) v0 (ix4 a b y w) = blockDiffAt v0 v1 v2 1 a b y w := by
  unfold k0_pay3
  by_cases h : y.val + 1 < 128
  · -- rows 0 … 126 of y are the first piece, at the same coordinates
    refine (concatenate_pair_apply_left (t := S8x4x128x128) (s₁ := S8x4x127x128) (s₂ := S8x4x1x128) (2 : Fin 4) _ _ _
      (ix4 a b y w) rfl (ix4 a b (⟨y.val, by omega⟩ : Fin 127) w) (fun ax => by
        match ax with
        | ⟨0, _⟩ => rfl
        | ⟨1, _⟩ => rfl
        | ⟨2, _⟩ => rfl
        | ⟨3, _⟩ => rfl)).trans ?_
    rw [mulf_apply, subf_apply, broadcast_apply]
    rw [slice4_apply 0 0 1 0 v0 _ a b (⟨y.val, by omega⟩ : Fin 127) w a b ⟨y.val + 1, h⟩ w
        (Nat.zero_add _).symm (Nat.zero_add _).symm (Nat.add_comm _ _) (Nat.zero_add _).symm,
      slice4_apply 0 0 0 0 v0 _ a b (⟨y.val, by omega⟩ : Fin 127) w a b y w
        (Nat.zero_add _).symm (Nat.zero_add _).symm (Nat.zero_add _).symm (Nat.zero_add _).symm]
    show _ = (if h : y.val + 1 < 128 then (v0 (ix4 a b ⟨y.val + 1, h⟩ w) - v0 (ix4 a b y w)) * one else 0)
    rw [dif_pos h]
    rfl
  · -- row 127 of y is the second piece: the zero row
    refine (concatenate_pair_apply_right (t := S8x4x128x128) (s₁ := S8x4x127x128) (s₂ := S8x4x1x128) (2 : Fin 4) _ _ _
      (ix4 a b y w) rfl rfl (ix4 a b (0 : Fin 1) w) (fun ax hax => by
        match ax with
        | ⟨0, _⟩ => rfl
        | ⟨1, _⟩ => rfl
        | ⟨2, _⟩ => exact absurd rfl hax
        | ⟨3, _⟩ => rfl) (by
        show 0 + 127 = y.val
        omega)).trans ?_
    rw [broadcast_apply, sitofp_zero]
    show _ = (if h : y.val + 1 < 128 then (v0 (ix4 a b ⟨y.val + 1, h⟩ w) - v0 (ix4 a b y w)) * one else 0)
    rw [dif_neg h]

/-- The difference along z: inside the tile for its rows 0, 1, 2; the tile's row 3 is differenced against the one
    z-row that follows the tile. -/
theorem pay4_at (v0 : Vec Ideal S8x4x128x128 .f32) (v1 : Vec Ideal S1x4x128x128 .f32) (v2 : Vec Ideal S8x1x128x128 .f32)
    (a : Fin 8) (b : Fin 4) (y : Fin 128) (w : Fin 128) :
    k0_pay4 (F := Ideal) v0 v2 (ix4 a b y w) = blockDiffAt v0 v1 v2 2 a b y w := by
  unfold k0_pay4
  by_cases h : b.val + 1 < 4
  · -- rows 0, 1, 2 of z are the first piece, at the same coordinates
    refine (concatenate_pair_apply_left (t := S8x4x128x128) (s₁ := S8x3x128x128) (s₂ := S8x1x128x128) (1 : Fin 4) _ _ _
      (ix4 a b y w) rfl (ix4 a (⟨b.val, by omega⟩ : Fin 3) y w) (fun ax => by
        match ax with
        | ⟨0, _⟩ => rfl
        | ⟨1, _⟩ => rfl
        | ⟨2, _⟩ => rfl
        | ⟨3, _⟩ => rfl)).trans ?_
    rw [mulf_apply, subf_apply, broadcast_apply]
    rw [slice4_apply 0 1 0 0 v0 _ a (⟨b.val, by omega⟩ : Fin 3) y w a ⟨b.val + 1, h⟩ y w
        (Nat.zero_add _).symm (Nat.add_comm _ _) (Nat.zero_add _).symm (Nat.zero_add _).symm,
      slice4_apply 0 0 0 0 v0 _ a (⟨b.val, by omega⟩ : Fin 3) y w a b y w
        (Nat.zero_add _).symm (Nat.zero_add _).symm (Nat.zero_add _).symm (Nat.zero_add _).symm]
    show _ = (if h : b.val + 1 < 4 then (v0 (ix4 a ⟨b.val + 1, h⟩ y w) - v0 (ix4 a b y w)) * one
      else (v2 (ix4 a (0 : Fin 1) y w) - v0 (ix4 a b y w)) * one)
    rw [dif_pos h]
    rfl
  · -- row 3 of z is the second piece: the following z-row less the tile's row 3
    have hb3 : b.val = 3 := by have := b.isLt; omega
    refine (concatenate_pair_apply_right (t := S8x4x128x128) (s₁ := S8x3x128x128) (s₂ := S8x1x128x128) (1 : Fin 4) _ _ _
      (ix4 a b y w) rfl rfl (ix4 a (0 : Fin 1) y w) (fun ax hax => by
        match ax with
        | ⟨0, _⟩ => rfl
        | ⟨1, _⟩ => exact absurd rfl hax
        | ⟨2, _⟩ => rfl
        | ⟨3, _⟩ => rfl) (by
        show 0 + 3 = b.val
        omega)).trans ?_
    rw [mulf_apply, subf_apply, broadcast_apply]
    rw [slice4_apply 0 3 0 0 v0 _ a (0 : Fin 1) y w a b y w
        (Nat.zero_add _).symm hb3 (Nat.zero_add _).symm (Nat.zero_add _).symm]
    show _ = (if h : b.val + 1 < 4 then (v0 (ix4 a ⟨b.val + 1, h⟩ y w) - v0 (ix4 a b y w)) * one
      else (v2 (ix4 a (0 : Fin 1) y w) - v0 (ix4 a b y w)) * one)
    rw [dif_neg h]
    rfl

/-- The difference along t, its two parts joined: inside the tile for its rows 0 … 6; the tile's row 7 is differenced
    against the one t-row that follows the tile. -/
theorem pay56_at (v0 : Vec Ideal S8x4x128x128 .f32) (v1 : Vec Ideal S1x4x128x128 .f32) (v2 : Vec Ideal S8x1x128x128 .f32)
    (a : Fin 8) (b : Fin 4) (y : Fin 128) (w : Fin 128) :
    concatenate S8x4x128x128 0 [⟨S7x4x128x128, k0_pay5 (F := Ideal) v0⟩, ⟨S1x4x128x128, k0_pay6 (F := Ideal) v0 v1⟩]
        concatenates_S7x4x128x128_S1x4x128x128_S8x4x128x128_d0 (ix4 a b y w)
      = blockDiffAt v0 v1 v2 3 a b y w := by
  by_cases h : a.val + 1 < 8
  · -- rows 0 … 6 of t are the first piece, at the same coordinates
    refine (concatenate_pair_apply_left (t := S8x4x128x128) (s₁ := S7x4x128x128) (s₂ := S1x4x128x128) (0 : Fin 4) _ _ _
      (ix4 a b y w) rfl (ix4 (⟨a.val, by omega⟩ : Fin 7) b y w) (fun ax => by
        match ax with
        | ⟨0, _⟩ => rfl
        | ⟨1, _⟩ => rfl
        | ⟨2, _⟩ => rfl
        | ⟨3, _⟩ => rfl)).trans ?_
    unfold k0_pay5
    rw [mulf_apply, subf_apply, broadcast_apply]
    rw [slice4_apply 1 0 0 0 v0 _ (⟨a.val, by omega⟩ : Fin 7) b y w ⟨a.val + 1, h⟩ b y w
        (Nat.add_comm _ _) (Nat.zero_add _).symm (Nat.zero_add _).symm (Nat.zero_add _).symm,
      slice4_apply 0 0 0 0 v0 _ (⟨a.val, by omega⟩ : Fin 7) b y w a b y w
        (Nat.zero_add _).symm (Nat.zero_add _).symm (Nat.zero_add _).symm (Nat.zero_add _).symm]
    show _ = (if h : a.val + 1 < 8 then (v0 (ix4 ⟨a.val + 1, h⟩ b y w) - v0 (ix4 a b y w)) * one
      else (v1 (ix4 (0 : Fin 1) b y w) - v0 (ix4 a b y w)) * one)
    rw [dif_pos h]
    rfl
  · -- row 7 of t is the second piece: the following t-row less the tile's row 7
    have ha7 : a.val = 7 := by have := a.isLt; omega
    refine (concatenate_pair_apply_right (t := S8x4x128x128) (s₁ := S7x4x128x128) (s₂ := S1x4x128x128) (0 : Fin 4) _ _ _
      (ix4 a b y w) rfl rfl (ix4 (0 : Fin 1) b y w) (fun ax hax => by
        match ax with
        | ⟨0, _⟩ => exact absurd rfl hax
        | ⟨1, _⟩ => rfl
        | ⟨2, _⟩ => rfl
        | ⟨3, _⟩ => rfl) (by
        show 0 + 7 = a.val
        omega)).trans ?_
    unfold k0_pay6
    rw [mulf_apply, subf_apply, broadcast_apply]
    rw [slice4_apply 7 0 0 0 v0 _ (0 : Fin 1) b y w a b y w
        ha7 (Nat.zero_add _).symm (Nat.zero_add _).symm (Nat.zero_add _).symm]
    show _ = (if h : a.val + 1 < 8 then (v0 (ix4 ⟨a.val + 1, h⟩ b y w) - v0 (ix4 a b y w)) * one
      else (v1 (ix4 (0 : Fin 1) b y w) - v0 (ix4 a b y w)) * one)
    rw [dif_neg h]
    rfl

/-- A tile-shaped array given a leading unit axis reads, at (u, a, b, y, w), the array at (a, b, y, w). -/
theorem cast_at {α : Type} (v : S8x4x128x128.Idx → α) (h : S8x4x128x128.ShapeCasts S1x8x4x128x128)
    (u : Fin 1) (a : Fin 8) (b : Fin 4) (y : Fin 128) (w : Fin 128) :
    shapeCast S1x8x4x128x128 v h (ix5 u a b y w) = v (ix4 a b y w) :=
  (shapeCast_addUnit_apply ![8, 4, 128, 128] v h (ix5 u a b y w)).trans (congrArg v (funext fun ax => by
    match ax with
    | ⟨0, _⟩ => rfl
    | ⟨1, _⟩ => rfl
    | ⟨2, _⟩ => rfl
    | ⟨3, _⟩ => rfl))

/-- **The stored value at one index**: the stack of the four differences, read at (k, a, b, y, w), is the scaled
    forward difference of the tile along axis k at (a, b, y, w). -/
theorem payload_at (v0 : Vec Ideal S8x4x128x128 .f32) (v1 : Vec Ideal S1x4x128x128 .f32) (v2 : Vec Ideal S8x1x128x128 .f32)
    (k : Fin 4) (a : Fin 8) (b : Fin 4) (y : Fin 128) (w : Fin 128) :
    k0_pay1 (F := Ideal) (k0_pay2 v0) (k0_pay3 v0) (k0_pay4 v0 v2) (k0_pay5 v0) (k0_pay6 v0 v1) (ix5 k a b y w)
      = blockDiffAt v0 v1 v2 k a b y w := by
  unfold k0_pay1
  match k with
  | ⟨0, hk⟩ =>
    refine (concatenate_apply_piece (t := S4x8x4x128x128) (0 : Fin 5) _ _ (ix5 (⟨0, hk⟩ : Fin 4) a b y w) 0 (by show (0 : Nat) < 4; decide)
      S1x8x4x128x128 _ rfl rfl 0 rfl (ix5 (0 : Fin 1) a b y w) (fun ax hax => by
        match ax with
        | ⟨0, _⟩ => exact absurd rfl hax
        | ⟨1, _⟩ => rfl
        | ⟨2, _⟩ => rfl
        | ⟨3, _⟩ => rfl
        | ⟨4, _⟩ => rfl) rfl).trans ?_
    exact (cast_at _ _ 0 a b y w).trans (pay2_at v0 v1 v2 a b y w)
  | ⟨1, hk⟩ =>
    refine (concatenate_apply_piece (t := S4x8x4x128x128) (0 : Fin 5) _ _ (ix5 (⟨1, hk⟩ : Fin 4) a b y w) 1 (by show (1 : Nat) < 4; decide)
      S1x8x4x128x128 _ rfl rfl 1 rfl (ix5 (0 : Fin 1) a b y w) (fun ax hax => by
        match ax with
        | ⟨0, _⟩ => exact absurd rfl hax
        | ⟨1, _⟩ => rfl
        | ⟨2, _⟩ => rfl
        | ⟨3, _⟩ => rfl
        | ⟨4, _⟩ => rfl) rfl).trans ?_
    exact (cast_at _ _ 0 a b y w).trans (pay3_at v0 v1 v2 a b y w)
  | ⟨2, hk⟩ =>
    refine (concatenate_apply_piece (t := S4x8x4x128x128) (0 : Fin 5) _ _ (ix5 (⟨2, hk⟩ : Fin 4) a b y w) 2 (by show (2 : Nat) < 4; decide)
      S1x8x4x128x128 _ rfl rfl 2 rfl (ix5 (0 : Fin 1) a b y w) (fun ax hax => by
        match ax with
        | ⟨0, _⟩ => exact absurd rfl hax
        | ⟨1, _⟩ => rfl
        | ⟨2, _⟩ => rfl
        | ⟨3, _⟩ => rfl
        | ⟨4, _⟩ => rfl) rfl).trans ?_
    exact (cast_at _ _ 0 a b y w).trans (pay4_at v0 v1 v2 a b y w)
  | ⟨3, hk⟩ =>
    refine (concatenate_apply_piece (t := S4x8x4x128x128) (0 : Fin 5) _ _ (ix5 (⟨3, hk⟩ : Fin 4) a b y w) 3 (by show (3 : Nat) < 4; decide)
      S1x8x4x128x128 _ rfl rfl 3 rfl (ix5 (0 : Fin 1) a b y w) (fun ax hax => by
        match ax with
        | ⟨0, _⟩ => exact absurd rfl hax
        | ⟨1, _⟩ => rfl
        | ⟨2, _⟩ => rfl
        | ⟨3, _⟩ => rfl
        | ⟨4, _⟩ => rfl) rfl).trans ?_
    exact (cast_at _ _ 0 a b y w).trans (pay56_at v0 v1 v2 a b y w)

end Cert.Nabla

end
-- ==== Proof.KernelIdealValue.lean ====
/-
  The idealized kernel's result, as one function of the argument array.

  Each grid point (i, j) writes back, to block (0, i, j, 0, 0) of the result, the four differences of the tile at
  (i, j): entry (k, a, b, y, w) of the block is entry (k, 8 i + a, 4 j + b, y, w) of the forward-difference stack.
  The 64 blocks cover the result, so the result IS the stack. On the last tile along z (or t) the row that
  "follows" the tile is the tile's own last row, and the difference there is x − x, which is 0 because x is finite.
-/
import proofs.«105243_j44848048504983_1_alg».proof.Proof.KernelIdealRun
import proofs.«105243_j44848048504983_1_alg».proof.Proof.PointWritesBlock
import proofs.«105243_j44848048504983_1_alg».proof.Proof.BlocksCover
import proofs.«105243_j44848048504983_1_alg».proof.Proof.PayloadAt
import proofs.«105243_j44848048504983_1_alg».proof.Proof.Spec
import proofs.«105243_j44848048504983_1_alg».proof.Proof.Finite
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Tiles
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The result array after the run is the forward-difference stack of the argument array: every point writes back the
    matching block of it, and the blocks cover the array. Finiteness of the argument is used where a tile is the last
    one along z or t: there the kernel differences a row against itself. -/
theorem final_out (c : Dev nD)
    (hfin : ∀ i, ∃ r : ℝ, (V m c main_arg0 : FVec Ideal S32x64x128x128 .f32) i = ((r : ℝ) : EReal)) :
    (dats (F := Ideal) m 0 c).arrAt 3 cfg0.N = Cert.Nabla.nabla (V m c main_arg0) :=
  (dats m 0 c).arrAt_eq_of_cover 3 _ (fun t _ => point_writes_block m c Cert.Nabla.payload_at hfin t) (fun i => blocks_cover i)

/-- The idealized kernel's run, read: the result array ends at the forward-difference stack of the argument array and
    the argument array as launched. -/
theorem run_value
    (hfin : ∀ c i, ∃ r : ℝ, (V m c main_arg0 : FVec Ideal S32x64x128x128 .f32) i = ((r : ℝ) : EReal)) :
    θ_run defs (onTc (τ := τ) (main (F := Ideal))) ⟨m, fun _ => 0, ρ⟩ fun r => ∀ c : Dev nD,
      r.2.mem ((c.tc : Thread nD τ).loc main_v0) = Cert.Nabla.nabla (m ((c.tc : Thread nD τ).loc main_arg0))
      ∧ r.2.mem ((c.tc : Thread nD τ).loc main_arg0) = m ((c.tc : Thread nD τ).loc main_arg0) :=
  (θ_run defs _ _).mono (fun r h c => ⟨((h c).1 3).trans (final_out m c (hfin c)),
      ((h c).1 0).trans (((dats m 0 c).arrAt_in 0 rfl _).trans (A_eq m c 0))⟩) (run_main m ρ)

end Cert.KernelIdeal.Whole

end
-- ==== Proof.RefIsNabla.lean ====
/-
  The reference program computes the forward-difference stack of the specification.

  For each of the four axes the reference takes two slices of the argument array that differ by one step along the
  axis, subtracts them, pads the difference with one trailing entry along that axis holding the integer 0 converted
  to a float, and multiplies every entry by the float word of 1.0. Read at (t, z, y, w), inside the operand of the
  pad this is x(next) − x(here) scaled by 1.0, and at the trailing entry it is 0 scaled by 1.0: the scaled forward
  difference with the zero boundary. The four results, each given a leading unit axis, are joined along that axis,
  so entry (k, t, z, y, w) of the joined array is entry (t, z, y, w) of the k-th one.
-/
import proofs.«105243_j44848048504983_1_alg».proof.Proof.Spec
import proofs.«105243_j44848048504983_1_alg».proof.Proof.Gen.ReferenceIdeal.Read
import Idealize.ShloMosaic.Lib.Pipeline.Value
import Idealize.ShloMosaic.Lib.KernelVsHost
import Idealize.ShloMosaic.Lib.ValueIdx

noncomputable section

namespace Cert.Nabla

open Idealize.ShloMosaic Idealize.ShloMosaic.ValueIdx Idealize.ShloMosaic.StableHlo
open Cert.ReferenceIdeal Cert.ReferenceIdeal.Read

/-- The integer 0 converted to a float is the real number 0. -/
theorem host_sitofp_zero : (FloatOps.sitofp (F := Ideal) .f32 (0#32 : BitVec 32)) = (0 : Ideal .f32) := by
  show (((0#32 : BitVec 32).toInt : ℝ) : EReal) = 0
  simp

/-- The stage of the w-difference, after padding and scaling, at (t, z, y, w): the forward difference along w, scaled. -/
theorem w_stage (x : FVec Ideal S32x64x128x128 .f32) (t : Fin 32) (z : Fin 64) (y : Fin 128) (w : Fin 128) :
    val_main_v3 (F := Ideal) x (ix4 t z y w) = diffAt x ⟨0, by decide⟩ t z y w * one := by
  rw [val_main_v3_apply, val_main_v2_apply, val_main_cst_apply]
  show val_main_v1 (F := Ideal) x (ix4 t z y w) * one = _
  refine congrArg (· * one) ?_
  unfold diffAt val_main_v1
  by_cases h : w.val + 1 < 128
  · -- inside the operand: the padded array is the difference of the two slices there
    rw [dif_pos h]
    rw [pad_apply_of_inside _ _ _ _ _ _ _ (ix4 t z y w) (ix4 t z y (⟨w.val, by omega⟩ : Fin 127)) (fun a => match a with
      | ⟨0, _⟩ => by show t.val = 0 + t.val * (0 + 1); omega
      | ⟨1, _⟩ => by show z.val = 0 + z.val * (0 + 1); omega
      | ⟨2, _⟩ => by show y.val = 0 + y.val * (0 + 1); omega
      | ⟨3, _⟩ => by show w.val = 0 + w.val * (0 + 1); omega)]
    rw [val_main_v0_apply, val_main_call0_v0_apply, val_main_call0_v1_apply]
    show x _ - x _ = x _ - x _
    congr 2
    · -- the shifted slice reads one step further along the differenced axis (1 + c = c + 1)
      funext a
      match a with
      | ⟨0, _⟩ => rfl
      | ⟨1, _⟩ => rfl
      | ⟨2, _⟩ => rfl
      | ⟨3, _⟩ => exact Fin.ext (Nat.add_comm 1 w.val)
    · -- the unshifted slice reads the entry itself
      funext a
      match a with
      | ⟨0, _⟩ => rfl
      | ⟨1, _⟩ => rfl
      | ⟨2, _⟩ => rfl
      | ⟨3, _⟩ => rfl
  · -- the one trailing entry of the differenced axis: the pad value, the integer 0 as a float
    rw [dif_neg h]
    rw [pad_apply_of_not_inside _ _ _ _ _ _ _ (ix4 t z y w) ⟨3, by decide⟩ (by
      show ¬(0 ≤ w.val ∧ (w.val - 0) % (0 + 1) = 0 ∧ (w.val - 0) / (0 + 1) < 127)
      omega)]
    rw [val_main_call1_v0_apply, val_main_c_apply]
    exact host_sitofp_zero

/-- The stage of the y-difference, after padding and scaling, at (t, z, y, w): the forward difference along y, scaled. -/
theorem y_stage (x : FVec Ideal S32x64x128x128 .f32) (t : Fin 32) (z : Fin 64) (y : Fin 128) (w : Fin 128) :
    val_main_v7 (F := Ideal) x (ix4 t z y w) = diffAt x ⟨1, by decide⟩ t z y w * one := by
  rw [val_main_v7_apply, val_main_v6_apply, val_main_cst_1_apply]
  show val_main_v5 (F := Ideal) x (ix4 t z y w) * one = _
  refine congrArg (· * one) ?_
  unfold diffAt val_main_v5
  by_cases h : y.val + 1 < 128
  · -- inside the operand: the padded array is the difference of the two slices there
    rw [dif_pos h]
    rw [pad_apply_of_inside _ _ _ _ _ _ _ (ix4 t z y w) (ix4 t z (⟨y.val, by omega⟩ : Fin 127) w) (fun a => match a with
      | ⟨0, _⟩ => by show t.val = 0 + t.val * (0 + 1); omega
      | ⟨1, _⟩ => by show z.val = 0 + z.val * (0 + 1); omega
      | ⟨2, _⟩ => by show y.val = 0 + y.val * (0 + 1); omega
      | ⟨3, _⟩ => by show w.val = 0 + w.val * (0 + 1); omega)]
    rw [val_main_v4_apply, val_main_call2_v0_apply, val_main_call2_v1_apply]
    show x _ - x _ = x _ - x _
    congr 2
    · -- the shifted slice reads one step further along the differenced axis (1 + c = c + 1)
      funext a
      match a with
      | ⟨0, _⟩ => rfl
      | ⟨1, _⟩ => rfl
      | ⟨2, _⟩ => exact Fin.ext (Nat.add_comm 1 y.val)
      | ⟨3, _⟩ => rfl
    · -- the unshifted slice reads the entry itself
      funext a
      match a with
      | ⟨0, _⟩ => rfl
      | ⟨1, _⟩ => rfl
      | ⟨2, _⟩ => rfl
      | ⟨3, _⟩ => rfl
  · -- the one trailing entry of the differenced axis: the pad value, the integer 0 as a float
    rw [dif_neg h]
    rw [pad_apply_of_not_inside _ _ _ _ _ _ _ (ix4 t z y w) ⟨2, by decide⟩ (by
      show ¬(0 ≤ y.val ∧ (y.val - 0) % (0 + 1) = 0 ∧ (y.val - 0) / (0 + 1) < 127)
      omega)]
    rw [val_main_call3_v0_apply, val_main_c_0_apply]
    exact host_sitofp_zero

/-- The stage of the z-difference, after padding and scaling, at (t, z, y, w): the forward difference along z, scaled. -/
theorem z_stage (x : FVec Ideal S32x64x128x128 .f32) (t : Fin 32) (z : Fin 64) (y : Fin 128) (w : Fin 128) :
    val_main_v11 (F := Ideal) x (ix4 t z y w) = diffAt x ⟨2, by decide⟩ t z y w * one := by
  rw [val_main_v11_apply, val_main_v10_apply, val_main_cst_3_apply]
  show val_main_v9 (F := Ideal) x (ix4 t z y w) * one = _
  refine congrArg (· * one) ?_
  unfold diffAt val_main_v9
  by_cases h : z.val + 1 < 64
  · -- inside the operand: the padded array is the difference of the two slices there
    rw [dif_pos h]
    rw [pad_apply_of_inside _ _ _ _ _ _ _ (ix4 t z y w) (ix4 t (⟨z.val, by omega⟩ : Fin 63) y w) (fun a => match a with
      | ⟨0, _⟩ => by show t.val = 0 + t.val * (0 + 1); omega
      | ⟨1, _⟩ => by show z.val = 0 + z.val * (0 + 1); omega
      | ⟨2, _⟩ => by show y.val = 0 + y.val * (0 + 1); omega
      | ⟨3, _⟩ => by show w.val = 0 + w.val * (0 + 1); omega)]
    rw [val_main_v8_apply, val_main_call4_v0_apply, val_main_call4_v1_apply]
    show x _ - x _ = x _ - x _
    congr 2
    · -- the shifted slice reads one step further along the differenced axis (1 + c = c + 1)
      funext a
      match a with
      | ⟨0, _⟩ => rfl
      | ⟨1, _⟩ => exact Fin.ext (Nat.add_comm 1 z.val)
      | ⟨2, _⟩ => rfl
      | ⟨3, _⟩ => rfl
    · -- the unshifted slice reads the entry itself
      funext a
      match a with
      | ⟨0, _⟩ => rfl
      | ⟨1, _⟩ => rfl
      | ⟨2, _⟩ => rfl
      | ⟨3, _⟩ => rfl
  · -- the one trailing entry of the differenced axis: the pad value, the integer 0 as a float
    rw [dif_neg h]
    rw [pad_apply_of_not_inside _ _ _ _ _ _ _ (ix4 t z y w) ⟨1, by decide⟩ (by
      show ¬(0 ≤ z.val ∧ (z.val - 0) % (0 + 1) = 0 ∧ (z.val - 0) / (0 + 1) < 63)
      omega)]
    rw [val_main_call5_v0_apply, val_main_c_2_apply]
    exact host_sitofp_zero

/-- The stage of the t-difference, after padding and scaling, at (t, z, y, w): the forward difference along t, scaled. -/
theorem t_stage (x : FVec Ideal S32x64x128x128 .f32) (t : Fin 32) (z : Fin 64) (y : Fin 128) (w : Fin 128) :
    val_main_v15 (F := Ideal) x (ix4 t z y w) = diffAt x ⟨3, by decide⟩ t z y w * one := by
  rw [val_main_v15_apply, val_main_v14_apply, val_main_cst_5_apply]
  show val_main_v13 (F := Ideal) x (ix4 t z y w) * one = _
  refine congrArg (· * one) ?_
  unfold diffAt val_main_v13
  by_cases h : t.val + 1 < 32
  · -- inside the operand: the padded array is the difference of the two slices there
    rw [dif_pos h]
    rw [pad_apply_of_inside _ _ _ _ _ _ _ (ix4 t z y w) (ix4 (⟨t.val, by omega⟩ : Fin 31) z y w) (fun a => match a with
      | ⟨0, _⟩ => by show t.val = 0 + t.val * (0 + 1); omega
      | ⟨1, _⟩ => by show z.val = 0 + z.val * (0 + 1); omega
      | ⟨2, _⟩ => by show y.val = 0 + y.val * (0 + 1); omega
      | ⟨3, _⟩ => by show w.val = 0 + w.val * (0 + 1); omega)]
    rw [val_main_v12_apply, val_main_call6_v0_apply, val_main_call6_v1_apply]
    show x _ - x _ = x _ - x _
    congr 2
    · -- the shifted slice reads one step further along the differenced axis (1 + c = c + 1)
      funext a
      match a with
      | ⟨0, _⟩ => exact Fin.ext (Nat.add_comm 1 t.val)
      | ⟨1, _⟩ => rfl
      | ⟨2, _⟩ => rfl
      | ⟨3, _⟩ => rfl
    · -- the unshifted slice reads the entry itself
      funext a
      match a with
      | ⟨0, _⟩ => rfl
      | ⟨1, _⟩ => rfl
      | ⟨2, _⟩ => rfl
      | ⟨3, _⟩ => rfl
  · -- the one trailing entry of the differenced axis: the pad value, the integer 0 as a float
    rw [dif_neg h]
    rw [pad_apply_of_not_inside _ _ _ _ _ _ _ (ix4 t z y w) ⟨0, by decide⟩ (by
      show ¬(0 ≤ t.val ∧ (t.val - 0) % (0 + 1) = 0 ∧ (t.val - 0) / (0 + 1) < 31)
      omega)]
    rw [val_main_call7_v0_apply, val_main_c_4_apply]
    exact host_sitofp_zero

/-- The reference program's result is the forward-difference stack: entry (k, t, z, y, w) of the joined array is
    entry (t, z, y, w) of the k-th scaled difference. -/
theorem ref_eq_nabla (x : FVec Ideal Cert.ReferenceIdeal.S32x64x128x128 .f32) :
    Cert.ReferenceIdeal.Read.val_main_v20 (F := Ideal) x = Cert.Nabla.nabla x := by
  funext i
  obtain ⟨k, t, z, y, w, rfl⟩ : ∃ k t z y w, i = ix5 k t z y w := ⟨i 0, i 1, i 2, i 3, i 4, eq_ix5 i⟩
  show val_main_v20 (F := Ideal) x (ix5 k t z y w) = diffAt x k t z y w * one
  unfold val_main_v20
  match k with
  | ⟨0, _⟩ =>
    rw [concatenate_apply_piece (0 : Fin 5) _ _ (ix5 (⟨0, by decide⟩ : Fin 4) t z y w) 0 (by show 0 < 4; decide)
      S1x32x64x128x128 (val_main_v16 (F := Ideal) x) rfl rfl 0 rfl (ix5 (0 : Fin 1) t z y w)
      (fun b hb => match b, hb with
        | ⟨0, _⟩, hb => absurd rfl hb
        | ⟨1, _⟩, _ => rfl
        | ⟨2, _⟩, _ => rfl
        | ⟨3, _⟩, _ => rfl
        | ⟨4, _⟩, _ => rfl) rfl]
    rw [val_main_v16_apply]
    -- dropping the leading unit axis of (0, t, z, y, w) leaves (t, z, y, w)
    have e : idx_main_v16 (ix5 (0 : Fin 1) t z y w) = ix4 t z y w := funext fun a => match a with
      | ⟨0, _⟩ => rfl
      | ⟨1, _⟩ => rfl
      | ⟨2, _⟩ => rfl
      | ⟨3, _⟩ => rfl
    rw [e]
    exact w_stage x t z y w
  | ⟨1, _⟩ =>
    rw [concatenate_apply_piece (0 : Fin 5) _ _ (ix5 (⟨1, by decide⟩ : Fin 4) t z y w) 1 (by show 1 < 4; decide)
      S1x32x64x128x128 (val_main_v17 (F := Ideal) x) rfl rfl 1 rfl (ix5 (0 : Fin 1) t z y w)
      (fun b hb => match b, hb with
        | ⟨0, _⟩, hb => absurd rfl hb
        | ⟨1, _⟩, _ => rfl
        | ⟨2, _⟩, _ => rfl
        | ⟨3, _⟩, _ => rfl
        | ⟨4, _⟩, _ => rfl) rfl]
    rw [val_main_v17_apply]
    -- dropping the leading unit axis of (0, t, z, y, w) leaves (t, z, y, w)
    have e : idx_main_v17 (ix5 (0 : Fin 1) t z y w) = ix4 t z y w := funext fun a => match a with
      | ⟨0, _⟩ => rfl
      | ⟨1, _⟩ => rfl
      | ⟨2, _⟩ => rfl
      | ⟨3, _⟩ => rfl
    rw [e]
    exact y_stage x t z y w
  | ⟨2, _⟩ =>
    rw [concatenate_apply_piece (0 : Fin 5) _ _ (ix5 (⟨2, by decide⟩ : Fin 4) t z y w) 2 (by show 2 < 4; decide)
      S1x32x64x128x128 (val_main_v18 (F := Ideal) x) rfl rfl 2 rfl (ix5 (0 : Fin 1) t z y w)
      (fun b hb => match b, hb with
        | ⟨0, _⟩, hb => absurd rfl hb
        | ⟨1, _⟩, _ => rfl
        | ⟨2, _⟩, _ => rfl
        | ⟨3, _⟩, _ => rfl
        | ⟨4, _⟩, _ => rfl) rfl]
    rw [val_main_v18_apply]
    -- dropping the leading unit axis of (0, t, z, y, w) leaves (t, z, y, w)
    have e : idx_main_v18 (ix5 (0 : Fin 1) t z y w) = ix4 t z y w := funext fun a => match a with
      | ⟨0, _⟩ => rfl
      | ⟨1, _⟩ => rfl
      | ⟨2, _⟩ => rfl
      | ⟨3, _⟩ => rfl
    rw [e]
    exact z_stage x t z y w
  | ⟨3, _⟩ =>
    rw [concatenate_apply_piece (0 : Fin 5) _ _ (ix5 (⟨3, by decide⟩ : Fin 4) t z y w) 3 (by show 3 < 4; decide)
      S1x32x64x128x128 (val_main_v19 (F := Ideal) x) rfl rfl 3 rfl (ix5 (0 : Fin 1) t z y w)
      (fun b hb => match b, hb with
        | ⟨0, _⟩, hb => absurd rfl hb
        | ⟨1, _⟩, _ => rfl
        | ⟨2, _⟩, _ => rfl
        | ⟨3, _⟩, _ => rfl
        | ⟨4, _⟩, _ => rfl) rfl]
    rw [val_main_v19_apply]
    -- dropping the leading unit axis of (0, t, z, y, w) leaves (t, z, y, w)
    have e : idx_main_v19 (ix5 (0 : Fin 1) t z y w) = ix4 t z y w := funext fun a => match a with
      | ⟨0, _⟩ => rfl
      | ⟨1, _⟩ => rfl
      | ⟨2, _⟩ => rfl
      | ⟨3, _⟩ => rfl
    rw [e]
    exact t_stage x t z y w

end Cert.Nabla

end
-- ==== Proof.lean ====
/-
  The kernel computes the 4-D forward-difference stack of x : f32[32, 64, 128, 128] (axes t, z, y, w): for each of
  the four axes, x(next) − x(here) scaled by 1.0, with 0 at the last index of the axis. It tiles t and z by 8 × 4
  over a 4 × 16 grid; the row that follows a tile along t or z comes from two extra one-row windows on the same
  array, clamped to the last row. The reference takes, per axis, the difference of two slices, pads one zero at the
  end of the axis, scales by 1.0, and joins the four along a new leading axis.

  Frames. The three input windows read one array, so the pipeline is launched with the array's full share dealt
  among them (Proof/LibSharedLaunch.lean, Proof/Kernel*Shares.lean); the body is run once at a symbolic point
  (Proof/Kernel*Tiles.lean) and the launch gives each program's frame (Proof/Kernel*Run.lean). The reference is a
  straight line of host operations.

  Value. Both results are the one function `Cert.Nabla.nabla` of the argument (Proof/Spec.lean): the reference by
  reading its stages at an index (Proof/RefIsNabla.lean); the kernel because the body's stored value at an index is
  the in-tile difference (Proof/PayloadAt.lean), each point writes back the matching block of the stack
  (Proof/PointWritesBlock.lean) and the blocks cover the result (Proof/BlocksCover.lean, Proof/KernelIdealValue.lean).
  The two sides differ only on the last tile along z or t, where the kernel computes x − x: that is 0 on the
  extended reals exactly when x is finite, which the precondition gives (Proof/Finite.lean).
-/
import proofs.«105243_j44848048504983_1_alg».proof.Defs
import proofs.«105243_j44848048504983_1_alg».proof.Proof.Gen.Kernel
import proofs.«105243_j44848048504983_1_alg».proof.Proof.Gen.Kernel.Skeleton
import proofs.«105243_j44848048504983_1_alg».proof.Proof.Gen.Kernel.Launch
import proofs.«105243_j44848048504983_1_alg».proof.Proof.Gen.Kernel.Points
import proofs.«105243_j44848048504983_1_alg».proof.Proof.Gen.KernelIdeal
import proofs.«105243_j44848048504983_1_alg».proof.Proof.Gen.KernelIdeal.Skeleton
import proofs.«105243_j44848048504983_1_alg».proof.Proof.Gen.KernelIdeal.Launch
import proofs.«105243_j44848048504983_1_alg».proof.Proof.Gen.KernelIdeal.Points
import proofs.«105243_j44848048504983_1_alg».proof.Proof.Gen.ReferenceIdeal
import proofs.«105243_j44848048504983_1_alg».proof.Proof.Gen.ReferenceIdeal.Run
import proofs.«105243_j44848048504983_1_alg».proof.Proof.Gen.ReferenceIdeal.Read
import proofs.«105243_j44848048504983_1_alg».proof.Proof.Gen.Pre_finite_inputs
import proofs.«105243_j44848048504983_1_alg».proof.Proof.KernelRun
import proofs.«105243_j44848048504983_1_alg».proof.Proof.KernelIdealRun
import proofs.«105243_j44848048504983_1_alg».proof.Proof.KernelIdealValue
import proofs.«105243_j44848048504983_1_alg».proof.Proof.RefIsNabla
import proofs.«105243_j44848048504983_1_alg».proof.Proof.Finite
import Idealize.ShloMosaic.Adequacy
import Idealize.ShloMosaic.Init

noncomputable section

namespace Cert.Proof

open Idealize.ShloMosaic Idealize.SL.Sem

/-- The printed kernel runs to the end, faults nowhere, and leaves its argument array unchanged. -/
theorem frame_kernel : Cert.frame_Kernel := fun m ρ _ => Cert.Kernel.Tiles.frame m ρ

/-- The same of the idealized kernel. -/
theorem frame_kernel_ideal : Cert.frame_KernelIdeal := fun m ρ _ => Cert.KernelIdeal.Tiles.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: there is no conjunct to prove. -/
theorem preserves : Cert.preserves_Kernel_KernelIdeal := trivial

/-- On finite inputs both programs end with the forward-difference stack of the argument array: the kernel tile by
    tile, the reference as four padded differences joined along a new leading axis. -/
theorem algebraic : Cert.algebraic_KernelIdeal_ReferenceIdeal := by
  intro m ρ m' ρ' hpre hagree
  refine ⟨fun c => Cert.Nabla.nabla (m ((c.tc : Thread Cert.KernelIdeal.nD Cert.KernelIdeal.τ).loc Cert.KernelIdeal.main_arg0)),
    Cert.KernelIdeal.Whole.run_value m ρ (fun c => Cert.Nabla.real_of_pre _ (hpre c)), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v20_eq, Cert.Nabla.ref_eq_nabla, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
